-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x1 : Shape := ⟨2, ![800000, 1]⟩
abbrev S800000x128 : Shape := ⟨2, ![800000, 128]⟩
abbrev S261x128 : Shape := ⟨2, ![261, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S800000x1 : S_.BroadcastsInDim S800000x1 (![] : Fin 0 → Fin S800000x1.rank)
  reducesTo_S800000x1_S_d0_1 : S800000x1.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S261x128 : S_.BroadcastsInDim S261x128 (![] : Fin 0 → Fin S261x128.rank)
  reducesTo_S261x128_S_d0_1 : S261x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S64x1 .f32) (main_arg12 : FVec F S1 .f32) (main_arg13 : FVec F S64x1 .f32) (main_arg14 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S64x1 .f32 := Host.absf main_arg13
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg14 main_v63 main_v67

def fn_part2 {F : FTy → Type} [FloatOps F] (main_arg7 : FVec F S261x128 .f32) (main_arg8 : FVec F S128 .f32) (main_arg9 : FVec F S128x64 .f32) (main_arg10 : FVec F S64 .f32) (main_arg11 : FVec F S64x1 .f32) (main_arg12 : FVec F S1 .f32) (main_arg13 : FVec F S64x1 .f32) (main_arg14 : FVec F S1 .f32) (main_v33 : IVec S_ 1) : IVec S_ 1 :=
  let main_v34 : FVec F S261x128 .f32 := Host.absf main_arg7
  let main_cst_12 : FVec F S_ .f32 := constant S_ .f32 0x7F800000#32
  let main_v35 : FVec F S261x128 .f32 := broadcastInDim S261x128 ![] bcast_S_S261x128 main_cst_12
  let main_v36 : IVec S261x128 1 := cmpf .olt main_v34 main_v35
  let main_c_13 : IVec S_ 1 := constantI S_ 1 1#1
  let main_v37 : IVec S_ 1 := (fun x v => Host.reduce IntOp.andi x v reducesTo_S261x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg9
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_v48 main_v49 main_v50

def fn_part1 {F : FTy → Type} [FloatOps F] (main_arg4 : FVec F S800000x1 .f32) (main_arg5 : FVec F S800000x1 .f32) (main_arg6 : FVec F S800000x1 .f32) (main_arg7 : FVec F S261x128 .f32) (main_arg8 : FVec F S128 .f32) (main_arg9 : FVec F S128x64 .f32) (main_arg10 : FVec F S64 .f32) (main_arg11 : FVec F S64x1 .f32) (main_arg12 : FVec F S1 .f32) (main_arg13 : FVec F S64x1 .f32) (main_arg14 : FVec F S1 .f32) (main_v13 : IVec S_ 1) (main_v16 : IVec S800000x1 1) : IVec S_ 1 :=
  let main_c_5 : IVec S_ 1 := constantI S_ 1 1#1
  let main_v17 : IVec S_ 1 := (fun x v => Host.reduce IntOp.andi x v reducesTo_S800000x1_S_d0_1 h_S_) main_v16 main_c_5
  let main_v18 : IVec S_ 1 := andi main_v13 main_v17
  let main_v19 : FVec F S800000x1 .f32 := Host.absf main_arg4
  let main_cst_6 : FVec F S_ .f32 := constant S_ .f32 0x7F800000#32
  let main_v20 : FVec F S800000x1 .f32 := broadcastInDim S800000x1 ![] bcast_S_S800000x1 main_cst_6
  let main_v21 : IVec S800000x1 1 := cmpf .olt main_v19 main_v20
  let main_c_7 : IVec S_ 1 := constantI S_ 1 1#1
  let main_v22 : IVec S_ 1 := (fun x v => Host.reduce IntOp.andi x v reducesTo_S800000x1_S_d0_1 h_S_) main_v21 main_c_7
  let main_v23 : IVec S_ 1 := andi main_v18 main_v22
  let main_v24 : FVec F S800000x1 .f32 := Host.absf main_arg5
  let main_cst_8 : FVec F S_ .f32 := constant S_ .f32 0x7F800000#32
  let main_v25 : FVec F S800000x1 .f32 := broadcastInDim S800000x1 ![] bcast_S_S800000x1 main_cst_8
  let main_v26 : IVec S800000x1 1 := cmpf .olt main_v24 main_v25
  let main_c_9 : IVec S_ 1 := constantI S_ 1 1#1
  let main_v27 : IVec S_ 1 := (fun x v => Host.reduce IntOp.andi x v reducesTo_S800000x1_S_d0_1 h_S_) main_v26 main_c_9
  let main_v28 : IVec S_ 1 := andi main_v23 main_v27
  let main_v29 : FVec F S800000x1 .f32 := Host.absf main_arg6
  let main_cst_10 : FVec F S_ .f32 := constant S_ .f32 0x7F800000#32
  let main_v30 : FVec F S800000x1 .f32 := broadcastInDim S800000x1 ![] bcast_S_S800000x1 main_cst_10
  let main_v31 : IVec S800000x1 1 := cmpf .olt main_v29 main_v30
  let main_c_11 : IVec S_ 1 := constantI S_ 1 1#1
  let main_v32 : IVec S_ 1 := (fun x v => Host.reduce IntOp.andi x v reducesTo_S800000x1_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S800000x1 .f32) (main_arg1 : FVec F S800000x128 .f32) (main_arg2 : FVec F S800000x128 .f32) (main_arg3 : FVec F S800000x1 .f32) (main_arg4 : FVec F S800000x1 .f32) (main_arg5 : FVec F S800000x1 .f32) (main_arg6 : FVec F S800000x1 .f32) (main_arg7 : FVec F S261x128 .f32) (main_arg8 : FVec F S128 .f32) (main_arg9 : FVec F S128x64 .f32) (main_arg10 : FVec F S64 .f32) (main_arg11 : FVec F S64x1 .f32) (main_arg12 : FVec F S1 .f32) (main_arg13 : FVec F S64x1 .f32) (main_arg14 : FVec F S1 .f32) : IVec S_ 1 :=
  let main_v0 : FVec F S800000x1 .f32 := Host.absf main_arg0
  let main_cst : FVec F S_ .f32 := constant S_ .f32 0x7F800000#32
  let main_v1 : FVec F S800000x1 .f32 := broadcastInDim S800000x1 ![] bcast_S_S800000x1 main_cst
  let main_v2 : IVec S800000x1 1 := cmpf .olt main_v0 main_v1
  let main_c : IVec S_ 1 := constantI S_ 1 1#1
  let main_v3 : IVec S_ 1 := (fun x v => Host.reduce IntOp.andi x v reducesTo_S800000x1_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S800000x128 .f32 := Host.absf main_arg2
  let main_cst_2 : FVec F S_ .f32 := constant S_ .f32 0x7F800000#32
  let main_v10 : FVec F S800000x128 .f32 := broadcastInDim S800000x128 ![] bcast_S_S800000x128 main_cst_2
  let main_v11 : IVec S800000x128 1 := cmpf .olt main_v9 main_v10
  let main_c_3 : IVec S_ 1 := constantI S_ 1 1#1
  let main_v12 : IVec S_ 1 := (fun x v => Host.reduce IntOp.andi x v reducesTo_S800000x128_S_d0_1 h_S_) main_v11 main_c_3
  let main_v13 : IVec S_ 1 := andi main_v8 main_v12
  let main_v14 : FVec F S800000x1 .f32 := Host.absf main_arg3
  let main_cst_4 : FVec F S_ .f32 := constant S_ .f32 0x7F800000#32
  let main_v15 : FVec F S800000x1 .f32 := broadcastInDim S800000x1 ![] bcast_S_S800000x1 main_cst_4
  let main_v16 : IVec S800000x1 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S800000x1 : Shape := ⟨2, ![800000, 1]⟩
abbrev S800000x128 : Shape := ⟨2, ![800000, 128]⟩
abbrev S261x128 : Shape := ⟨2, ![261, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S800000x3 : Shape := ⟨2, ![800000, 3]⟩
abbrev S800000x8 : Shape := ⟨2, ![800000, 8]⟩
abbrev S1x128 : Shape := ⟨2, ![1, 128]⟩
abbrev S4x128 : Shape := ⟨2, ![4, 128]⟩
abbrev S3x128 : Shape := ⟨2, ![3, 128]⟩
abbrev S8x128 : Shape := ⟨2, ![8, 128]⟩
abbrev S128x128 : Shape := ⟨2, ![128, 128]⟩
abbrev S64x2 : Shape := ⟨2, ![64, 2]⟩
abbrev S2 : Shape := ⟨1, ![2]⟩
abbrev S1x2 : Shape := ⟨2, ![1, 2]⟩
abbrev S1x64 : Shape := ⟨2, ![1, 64]⟩
abbrev S800000x2 : Shape := ⟨2, ![800000, 2]⟩
abbrev S4000x8 : Shape := ⟨2, ![4000, 8]⟩
abbrev S4000x128 : Shape := ⟨2, ![4000, 128]⟩
abbrev S4000x2 : Shape := ⟨2, ![4000, 2]⟩
abbrev S4000x64 : Shape := ⟨2, ![4000, 64]⟩

abbrev nBuf : Space → Nat
  | .hbm => 33
  | .vmem => 16
  | .smem => 0
  | _ => 0

abbrev bufTy : (tb : Table) → Fin (tcTables nBuf tb) → BufTy
  | .hbm, ⟨0, _⟩ => ⟨S800000x1, .f32⟩
  | .hbm, ⟨1, _⟩ => ⟨S800000x128, .f32⟩
  | .hbm, ⟨2, _⟩ => ⟨S800000x128, .f32⟩
  | .hbm, ⟨3, _⟩ => ⟨S800000x1, .f32⟩
  | .hbm, ⟨4, _⟩ => ⟨S800000x1, .f32⟩
  | .hbm, ⟨5, _⟩ => ⟨S800000x1, .f32⟩
  | .hbm, ⟨6, _⟩ => ⟨S800000x1, .f32⟩
  | .hbm, ⟨7, _⟩ => ⟨S261x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S64x1, .f32⟩
  | .hbm, ⟨14, _⟩ => ⟨S1, .f32⟩
  | .hbm, ⟨15, _⟩ => ⟨S_, .f32⟩
  | .hbm, ⟨16, _⟩ => ⟨S800000x3, .f32⟩
  | .hbm, ⟨17, _⟩ => ⟨S800000x8, .f32⟩
  | .hbm, ⟨18, _⟩ => ⟨S1x128, .f32⟩
  | .hbm, ⟨19, _⟩ => ⟨S4x128, .f32⟩
  | .hbm, ⟨20, _⟩ => ⟨S_, .f32⟩
  | .hbm, ⟨21, _⟩ => ⟨S3x128, .f32⟩
  | .hbm, ⟨22, _⟩ => ⟨S8x128, .f32⟩
  | .hbm, ⟨23, _⟩ => ⟨S128x128, .f32⟩
  | .hbm, ⟨24, _⟩ => ⟨S128x128, .f32⟩
  | .hbm, ⟨25, _⟩ => ⟨S64x2, .f32⟩
  | .hbm, ⟨26, _⟩ => ⟨S2, .f32⟩
  | .hbm, ⟨27, _⟩ => ⟨S1x2, .f32⟩
  | .hbm, ⟨28, _⟩ => ⟨S1x128, .f32⟩
  | .hbm, ⟨29, _⟩ => ⟨S1x64, .f32⟩
  | .hbm, ⟨30, _⟩ => ⟨S800000x2, .f32⟩
  | .hbm, ⟨31, _⟩ => ⟨S800000x1, .f32⟩
  | .hbm, ⟨32, _⟩ => ⟨S800000x1, .f32⟩
  | .local _ .vmem, ⟨0, _⟩ => ⟨S4000x8, .f32⟩
  | .local _ .vmem, ⟨1, _⟩ => ⟨S4000x8, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S8x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S64x2, .f32⟩
  | .local _ .vmem, ⟨13, _⟩ => ⟨S1x2, .f32⟩
  | .local _ .vmem, ⟨14, _⟩ => ⟨S4000x2, .f32⟩
  | .local _ .vmem, ⟨15, _⟩ => ⟨S4000x2, .f32⟩
  | _, _ => ⟨S800000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S800000x3 : S_.BroadcastsInDim S800000x3 (![] : Fin 0 → Fin S800000x3.rank)
  concatenates_S800000x1_S800000x1_S800000x1_S800000x1_S800000x1_S800000x3_S800000x8_d1 : Shape.Concatenates [S800000x1, S800000x1, S800000x1, S800000x1, S800000x1, S800000x3] S800000x8 1
  slices_S261x128_S1x128_0_0 : S261x128.Slices ![0, 0] S1x128
  slices_S261x128_S4x128_257_0 : S261x128.Slices ![257, 0] S4x128
  bcast_S_S3x128 : S_.BroadcastsInDim S3x128 (![] : Fin 0 → Fin S3x128.rank)
  concatenates_S1x128_S4x128_S3x128_S8x128_d0 : Shape.Concatenates [S1x128, S4x128, S3x128] S8x128 0
  slices_S261x128_S128x128_1_0 : S261x128.Slices ![1, 0] S128x128
  slices_S261x128_S128x128_129_0 : S261x128.Slices ![129, 0] S128x128
  concatenates_S64x1_S64x1_S64x2_d1 : Shape.Concatenates [S64x1, S64x1] S64x2 1
  concatenates_S1_S1_S2_d0 : Shape.Concatenates [S1, S1] S2 0
  shapeCasts_S2_S1x2 : S2.ShapeCasts S1x2
  shapeCasts_S128_S1x128 : S128.ShapeCasts S1x128
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x8_S4000x8_0_0 : ∀ a, (![0, 0] : Fin 2 → Nat) a + S4000x8.size a ≤ S4000x8.size a
  h_S4000x8 : 0 < S4000x8.numel
  shapeCasts_S4000x8_S4000x8 : S4000x8.ShapeCasts S4000x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  slices_S800000x2_S800000x1_0_0 : S800000x2.Slices ![0, 0] S800000x1
  slices_S800000x2_S800000x1_0_1 : S800000x2.Slices ![0, 1] S800000x1
  dot_S4000x128_S128x128_S4000x128_1_0_0_1_n_n_wf : DotDims.WF S4000x128 S128x128 S4000x128 [1] [0] [0] [1] [] []
  dot_S4000x8_S8x128_S4000x128_1_0_0_1_n_n_wf : DotDims.WF S4000x8 S8x128 S4000x128 [1] [0] [0] [1] [] []
  dot_S4000x128_S128x64_S4000x64_1_0_0_1_n_n_wf : DotDims.WF S4000x128 S128x64 S4000x64 [1] [0] [0] [1] [] []
  dot_S4000x64_S64x2_S4000x2_1_0_0_1_n_n_wf : DotDims.WF S4000x64 S64x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x8.size a ≤ S800000x8.size a
  hwx0_0 : ∀ i : grid0.Coords, EltTy.bits .f32 = 32 ∨ (Rect.block (s := S800000x8) S4000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S800000x128.size a
  hwx0_2 : ∀ i : grid0.Coords, EltTy.bits .f32 = 32 ∨ (Rect.block (s := S800000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x2.size a ≤ S64x2.size a
  hwx0_9 : ∀ i : grid0.Coords, EltTy.bits .f32 = 32 ∨ (Rect.block (s := S64x2) S64x2.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2.size a ≤ S1x2.size a
  hwx0_10 : ∀ i : grid0.Coords, EltTy.bits .f32 = 32 ∨ (Rect.block (s := S1x2) S1x2.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x2.size a ≤ S800000x2.size a
  hwx0_11 : ∀ i : grid0.Coords, EltTy.bits .f32 = 32 ∨ (Rect.block (s := S800000x2) S4000x2.size (cc0_transform_11 i) (hinb0_11 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x2_S4000x2_1_0_0_1_n_n : DotDims S4000x64 S64x2 S4000x2 where
  lhsContracting := [1]
  rhsContracting := [0]
  lhsNonContracting := [0]
  rhsNonContracting := [1]
  lhsBatch := []
  rhsBatch := []
  wf := dot_S4000x64_S64x2_S4000x2_1_0_0_1_n_n_wf

abbrev win0_0 : Pipeline.Window sig grid0 :=
  Pipeline.Window.ofSpec (Memref.whole main_v1) S4000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S64x2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S4000x2.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S800000x1 : Shape := ⟨2, ![800000, 1]⟩
abbrev S800000x128 : Shape := ⟨2, ![800000, 128]⟩
abbrev S261x128 : Shape := ⟨2, ![261, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S800000x261 : Shape := ⟨2, ![800000, 261]⟩
abbrev S1x128 : Shape := ⟨2, ![1, 128]⟩
abbrev S800000x64 : Shape := ⟨2, ![800000, 64]⟩
abbrev S1x64 : Shape := ⟨2, ![1, 64]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S800000x1, .f32⟩
  | .hbm, ⟨1, _⟩ => ⟨S800000x128, .f32⟩
  | .hbm, ⟨2, _⟩ => ⟨S800000x128, .f32⟩
  | .hbm, ⟨3, _⟩ => ⟨S800000x1, .f32⟩
  | .hbm, ⟨4, _⟩ => ⟨S800000x1, .f32⟩
  | .hbm, ⟨5, _⟩ => ⟨S800000x1, .f32⟩
  | .hbm, ⟨6, _⟩ => ⟨S800000x1, .f32⟩
  | .hbm, ⟨7, _⟩ => ⟨S261x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S64x1, .f32⟩
  | .hbm, ⟨14, _⟩ => ⟨S1, .f32⟩
  | .hbm, ⟨15, _⟩ => ⟨S800000x261, .f32⟩
  | .hbm, ⟨16, _⟩ => ⟨S800000x128, .f32⟩
  | .hbm, ⟨17, _⟩ => ⟨S1x128, .f32⟩
  | .hbm, ⟨18, _⟩ => ⟨S800000x128, .f32⟩
  | .hbm, ⟨19, _⟩ => ⟨S800000x128, .f32⟩
  | .hbm, ⟨20, _⟩ => ⟨S800000x128, .f32⟩
  | .hbm, ⟨21, _⟩ => ⟨S800000x64, .f32⟩
  | .hbm, ⟨22, _⟩ => ⟨S1x64, .f32⟩
  | .hbm, ⟨23, _⟩ => ⟨S800000x64, .f32⟩
  | .hbm, ⟨24, _⟩ => ⟨S800000x64, .f32⟩
  | .hbm, ⟨25, _⟩ => ⟨S800000x64, .f32⟩
  | .hbm, ⟨26, _⟩ => ⟨S800000x1, .f32⟩
  | .hbm, ⟨27, _⟩ => ⟨S1x1, .f32⟩
  | .hbm, ⟨28, _⟩ => ⟨S800000x1, .f32⟩
  | .hbm, ⟨29, _⟩ => ⟨S800000x1, .f32⟩
  | .hbm, ⟨30, _⟩ => ⟨S800000x1, .f32⟩
  | .hbm, ⟨31, _⟩ => ⟨S1x1, .f32⟩
  | .hbm, ⟨32, _⟩ => ⟨S800000x1, .f32⟩
  | .hbm, ⟨33, _⟩ => ⟨S800000x1, .f32⟩
  | _, _ => ⟨S800000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  concatenates_S800000x1_S800000x128_S800000x128_S800000x1_S800000x1_S800000x1_S800000x1_S800000x261_d1 : Shape.Concatenates [S800000x1, S800000x128, S800000x128, S800000x1, S800000x1, S800000x1, S800000x1] S800000x261 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  dot_S800000x261_S261x128_S800000x128_1_0_0_1_n_n_wf : DotDims.WF S800000x261 S261x128 S800000x128 [1] [0] [0] [1] [] []
  dot_S800000x128_S128x64_S800000x64_1_0_0_1_n_n_wf : DotDims.WF S800000x128 S128x64 S800000x64 [1] [0] [0] [1] [] []
  dot_S800000x64_S64x1_S800000x1_1_0_0_1_n_n_wf : DotDims.WF S800000x64 S64x1 S800000x1 [1] [0] [0] [1] [] []

variable [Facts₀]

def dot_S800000x261_S261x128_S800000x128_1_0_0_1_n_n : DotDims S800000x261 S261x128 S800000x128 where
  lhsContracting := [1]
  rhsContracting := [0]
  lhsNonContracting := [0]
  rhsNonContracting := [1]
  lhsBatch := []
  rhsBatch := []
  wf := dot_S800000x261_S261x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf

class Facts : Prop extends Facts₀ where

variable [Facts]
-- ==== Proof.KernelAround.lean ====
/-
  The run of `Kernel`'s @main, at any float instance: fifteen host lines build the packed operands
  (the five scalar columns and three zero columns side by side; the first row of W1, its last four rows and
  three zero rows stacked; the two middle 128-row bands of W1; the two heads side by side; the biases as rows),
  one region walks the 200 row-blocks of 4000 rows, and two host lines cut the two result columns apart.
  No host line writes an argument, so every argument ends as launched. At each grid point the body reads its
  eleven input blocks whole and overwrites its output block whole with ONE term of those blocks (`blockOut`);
  the arrays after the region are what the pipeline library computes from that.
-/
import proofs.«138492_g85555748537205_cont_sun_m_819_2_alg».proof.Proof.Gen.Kernel.Launch
import proofs.«138492_g85555748537205_cont_sun_m_819_2_alg».proof.Proof.Gen.Kernel.Skeleton
import proofs.«138492_g85555748537205_cont_sun_m_819_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s TensorCore buffers hold when the region is entered: the launch memory after the fifteen
    host lines before it. -/
abbrev V0 (c : Dev nD) : Valuation τ sig (Elt F) := StableHlo.after (List.flatten [hostOps0]) (fun b => m (c, b))
/-- The same, read at one TensorCore buffer. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the host lines before the region, the region, then the two slicing lines as its continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two lines after the region touch only unscoped TensorCore buffers. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes only its own column buffer, which is no window's array. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.nary_writes, StableHlo.reshape_writes, Finset.mem_singleton] <;> exact StableHlo.devRef_ne_of_ne (by decide)

/-! ## No host line writes an argument -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    its block index had not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    its block index had not moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    its block index had not moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    its block index had not moved. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there or
    its block index had not moved. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether the pipeline fetched it there or
    its block index had not moved. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, whether the pipeline fetched it there or
    its block index had not moved. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, whether the pipeline fetched it there or
    its block index had not moved. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, whether the pipeline fetched it there or
    its block index had not moved. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, whether the pipeline fetched it there or
    its block index had not moved. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, whether the pipeline fetched it there or
    its block index had not moved. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## Every argument ends as launched -/

/-- From a run to the library's post (each window's array at what the proof data computes, every other unscoped
    buffer as the two slicing lines leave it): an argument a window stages is an INPUT window's array, kept; any
    other argument is written by no host line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨
      ((h c).2 main_arg0 (Pipeline.mem_restRefs_of main_arg0 (by decide) (by decide))).trans (W_main_arg0 m dats c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).1 7).trans (((dats 0 c).arrAt_in 7 rfl _).trans ((hA c 7).trans (V_main_arg9 m c))),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c),
      ((h c).2 main_arg13 (Pipeline.mem_restRefs_of main_arg13 (by decide) (by decide))).trans (W_main_arg13 m dats c),
      ((h c).2 main_arg14 (Pipeline.mem_restRefs_of main_arg14 (by decide) (by decide))).trans (W_main_arg14 m dats c)⟩) h

/-! ## The body's accesses: every load and the one store take a whole staging buffer -/
abbrev whole_S4000x8 : Rect S4000x8 := Rect.unit (s := S4000x8) ![0, 0] S4000x8.size inb_S4000x8_S4000x8_0_0
abbrev whole_S4000x128 : Rect S4000x128 := Rect.unit (s := S4000x128) ![0, 0] S4000x128.size inb_S4000x128_S4000x128_0_0
abbrev whole_S8x128 : Rect S8x128 := Rect.unit (s := S8x128) ![0, 0] S8x128.size inb_S8x128_S8x128_0_0
abbrev whole_S128x128 : Rect S128x128 := Rect.unit (s := S128x128) ![0, 0] S128x128.size inb_S128x128_S128x128_0_0
abbrev whole_S1x128 : Rect S1x128 := Rect.unit (s := S1x128) ![0, 0] S1x128.size inb_S1x128_S1x128_0_0
abbrev whole_S128x64 : Rect S128x64 := Rect.unit (s := S128x64) ![0, 0] S128x64.size inb_S128x64_S128x64_0_0
abbrev whole_S1x64 : Rect S1x64 := Rect.unit (s := S1x64) ![0, 0] S1x64.size inb_S1x64_S1x64_0_0
abbrev whole_S64x2 : Rect S64x2 := Rect.unit (s := S64x2) ![0, 0] S64x2.size inb_S64x2_S64x2_0_0
abbrev whole_S1x2 : Rect S1x2 := Rect.unit (s := S1x2) ![0, 0] S1x2.size inb_S1x2_S1x2_0_0
abbrev whole_S4000x2 : Rect S4000x2 := Rect.unit (s := S4000x2) ![0, 0] S4000x2.size inb_S4000x2_S4000x2_0_0

/-- The output block after the body, from the eleven input blocks: the one store's payload, over the loads' values. -/
def blockOut (x0 : Vec F S4000x8 .f32) (x1 : Vec F S4000x128 .f32) (x2 : Vec F S4000x128 .f32) (x3 : Vec F S8x128 .f32) (x4 : Vec F S128x128 .f32) (x5 : Vec F S128x128 .f32) (x6 : Vec F S1x128 .f32) (x7 : Vec F S128x64 .f32) (x8 : Vec F S1x64 .f32) (x9 : Vec F S64x2 .f32) (x10 : Vec F S1x2 .f32) : Vec F S4000x2 .f32 :=
  View.canon [⟨whole_S4000x2, k0_pay1 (k0_pay2 (View.ld x1 whole_S4000x128) (View.ld x4 whole_S128x128) (View.ld x2 whole_S4000x128) (View.ld x5 whole_S128x128) (View.ld x0 whole_S4000x8) (View.ld x3 whole_S8x128) (View.ld x6 whole_S1x128) (View.ld x7 whole_S128x64) (View.ld x8 whole_S1x64) (View.ld x9 whole_S64x2)) (k0_pay3 (View.ld x10 whole_S1x2))⟩]

/-- The one store covers the output buffer. -/
theorem blockOut_cover (p0 : Vec F S4000x2 .f32) (y : S4000x2.Idx) :
    ∃ pc ∈ ([⟨whole_S4000x2, p0⟩] : List (View.Piece (Elt F) S4000x2 .f32)), y ∈ pc.1.set :=
  View.cover_of_tiled [⟨whole_S4000x2, p0⟩] S4000x2.size (by rfl) y

/-! ## The body's triple -/

set_option maxHeartbeats 1000000 in
/-- On whole staging buffers, the inputs' at contents `x0 … x10` and the output's at anything, the body runs to a state
    with the inputs' as they were and the output's at `blockOut` of them. -/
theorem sound_kernel (c : Dev nD) (E : Set ℕ) (i : grid0.Coords) (arg1 : Memref sig .tc .vmem S4000x8 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S8x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x2 .f32) (harg10 : arg10.IsWhole) (arg11 : Memref sig .tc .vmem S1x2 .f32) (harg11 : arg11.IsWhole) (arg12 : Memref sig .tc .vmem S4000x2 .f32) (harg12 : arg12.IsWhole)
    (x0 : Vec F S4000x8 .f32) (x1 : Vec F S4000x128 .f32) (x2 : Vec F S4000x128 .f32) (x3 : Vec F S8x128 .f32) (x4 : Vec F S128x128 .f32) (x5 : Vec F S128x128 .f32) (x6 : Vec F S1x128 .f32) (x7 : Vec F S128x64 .f32) (x8 : Vec F S1x64 .f32) (x9 : Vec F S64x2 .f32) (x10 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (blockOut x0 x1 x2 x3 x4 x5 x6 x7 x8 x9 x10)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (blockOut_cover _)

/-! ## The pipeline's proof data -/

/-- On core `c`: the arrays as the region finds them; after the body at point `t` each input buffer at its block and
    the output buffer at `blockOut` of the input blocks; nothing of the kernel's own to keep, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => blockOut (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = blockOut (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- At any point the inputs' buffers hold their blocks, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault; at the end each window's array holds what the
    library computes from the proof data, and every other unscoped buffer what the two slicing lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The program runs to the end, faults nowhere, and leaves its fifteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Around

end
-- ==== Proof.KernelIdealAround.lean ====
/-
  The run of `KernelIdeal`'s @main, at any float instance: fifteen host lines build the packed operands
  (the five scalar columns and three zero columns side by side; the first row of W1, its last four rows and
  three zero rows stacked; the two middle 128-row bands of W1; the two heads side by side; the biases as rows),
  one region walks the 200 row-blocks of 4000 rows, and two host lines cut the two result columns apart.
  No host line writes an argument, so every argument ends as launched. At each grid point the body reads its
  eleven input blocks whole and overwrites its output block whole with ONE term of those blocks (`blockOut`);
  the arrays after the region are what the pipeline library computes from that.
-/
import proofs.«138492_g85555748537205_cont_sun_m_819_2_alg».proof.Proof.Gen.KernelIdeal.Launch
import proofs.«138492_g85555748537205_cont_sun_m_819_2_alg».proof.Proof.Gen.KernelIdeal.Skeleton
import proofs.«138492_g85555748537205_cont_sun_m_819_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s TensorCore buffers hold when the region is entered: the launch memory after the fifteen
    host lines before it. -/
abbrev V0 (c : Dev nD) : Valuation τ sig (Elt F) := StableHlo.after (List.flatten [hostOps0]) (fun b => m (c, b))
/-- The same, read at one TensorCore buffer. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the host lines before the region, the region, then the two slicing lines as its continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two lines after the region touch only unscoped TensorCore buffers. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes only its own column buffer, which is no window's array. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.nary_writes, StableHlo.reshape_writes, Finset.mem_singleton] <;> exact StableHlo.devRef_ne_of_ne (by decide)

/-! ## No host line writes an argument -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    its block index had not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    its block index had not moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    its block index had not moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    its block index had not moved. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there or
    its block index had not moved. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether the pipeline fetched it there or
    its block index had not moved. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, whether the pipeline fetched it there or
    its block index had not moved. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, whether the pipeline fetched it there or
    its block index had not moved. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, whether the pipeline fetched it there or
    its block index had not moved. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, whether the pipeline fetched it there or
    its block index had not moved. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, whether the pipeline fetched it there or
    its block index had not moved. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## Every argument ends as launched -/

/-- From a run to the library's post (each window's array at what the proof data computes, every other unscoped
    buffer as the two slicing lines leave it): an argument a window stages is an INPUT window's array, kept; any
    other argument is written by no host line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨
      ((h c).2 main_arg0 (Pipeline.mem_restRefs_of main_arg0 (by decide) (by decide))).trans (W_main_arg0 m dats c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).1 7).trans (((dats 0 c).arrAt_in 7 rfl _).trans ((hA c 7).trans (V_main_arg9 m c))),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c),
      ((h c).2 main_arg13 (Pipeline.mem_restRefs_of main_arg13 (by decide) (by decide))).trans (W_main_arg13 m dats c),
      ((h c).2 main_arg14 (Pipeline.mem_restRefs_of main_arg14 (by decide) (by decide))).trans (W_main_arg14 m dats c)⟩) h

/-! ## The body's accesses: every load and the one store take a whole staging buffer -/
abbrev whole_S4000x8 : Rect S4000x8 := Rect.unit (s := S4000x8) ![0, 0] S4000x8.size inb_S4000x8_S4000x8_0_0
abbrev whole_S4000x128 : Rect S4000x128 := Rect.unit (s := S4000x128) ![0, 0] S4000x128.size inb_S4000x128_S4000x128_0_0
abbrev whole_S8x128 : Rect S8x128 := Rect.unit (s := S8x128) ![0, 0] S8x128.size inb_S8x128_S8x128_0_0
abbrev whole_S128x128 : Rect S128x128 := Rect.unit (s := S128x128) ![0, 0] S128x128.size inb_S128x128_S128x128_0_0
abbrev whole_S1x128 : Rect S1x128 := Rect.unit (s := S1x128) ![0, 0] S1x128.size inb_S1x128_S1x128_0_0
abbrev whole_S128x64 : Rect S128x64 := Rect.unit (s := S128x64) ![0, 0] S128x64.size inb_S128x64_S128x64_0_0
abbrev whole_S1x64 : Rect S1x64 := Rect.unit (s := S1x64) ![0, 0] S1x64.size inb_S1x64_S1x64_0_0
abbrev whole_S64x2 : Rect S64x2 := Rect.unit (s := S64x2) ![0, 0] S64x2.size inb_S64x2_S64x2_0_0
abbrev whole_S1x2 : Rect S1x2 := Rect.unit (s := S1x2) ![0, 0] S1x2.size inb_S1x2_S1x2_0_0
abbrev whole_S4000x2 : Rect S4000x2 := Rect.unit (s := S4000x2) ![0, 0] S4000x2.size inb_S4000x2_S4000x2_0_0

/-- The output block after the body, from the eleven input blocks: the one store's payload, over the loads' values. -/
def blockOut (x0 : Vec F S4000x8 .f32) (x1 : Vec F S4000x128 .f32) (x2 : Vec F S4000x128 .f32) (x3 : Vec F S8x128 .f32) (x4 : Vec F S128x128 .f32) (x5 : Vec F S128x128 .f32) (x6 : Vec F S1x128 .f32) (x7 : Vec F S128x64 .f32) (x8 : Vec F S1x64 .f32) (x9 : Vec F S64x2 .f32) (x10 : Vec F S1x2 .f32) : Vec F S4000x2 .f32 :=
  View.canon [⟨whole_S4000x2, k0_pay1 (k0_pay2 (View.ld x1 whole_S4000x128) (View.ld x4 whole_S128x128) (View.ld x2 whole_S4000x128) (View.ld x5 whole_S128x128) (View.ld x0 whole_S4000x8) (View.ld x3 whole_S8x128) (View.ld x6 whole_S1x128) (View.ld x7 whole_S128x64) (View.ld x8 whole_S1x64) (View.ld x9 whole_S64x2)) (k0_pay3 (View.ld x10 whole_S1x2))⟩]

/-- The one store covers the output buffer. -/
theorem blockOut_cover (p0 : Vec F S4000x2 .f32) (y : S4000x2.Idx) :
    ∃ pc ∈ ([⟨whole_S4000x2, p0⟩] : List (View.Piece (Elt F) S4000x2 .f32)), y ∈ pc.1.set :=
  View.cover_of_tiled [⟨whole_S4000x2, p0⟩] S4000x2.size (by rfl) y

/-! ## The body's triple -/

set_option maxHeartbeats 1000000 in
/-- On whole staging buffers, the inputs' at contents `x0 … x10` and the output's at anything, the body runs to a state
    with the inputs' as they were and the output's at `blockOut` of them. -/
theorem sound_kernel (c : Dev nD) (E : Set ℕ) (i : grid0.Coords) (arg1 : Memref sig .tc .vmem S4000x8 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S8x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x2 .f32) (harg10 : arg10.IsWhole) (arg11 : Memref sig .tc .vmem S1x2 .f32) (harg11 : arg11.IsWhole) (arg12 : Memref sig .tc .vmem S4000x2 .f32) (harg12 : arg12.IsWhole)
    (x0 : Vec F S4000x8 .f32) (x1 : Vec F S4000x128 .f32) (x2 : Vec F S4000x128 .f32) (x3 : Vec F S8x128 .f32) (x4 : Vec F S128x128 .f32) (x5 : Vec F S128x128 .f32) (x6 : Vec F S1x128 .f32) (x7 : Vec F S128x64 .f32) (x8 : Vec F S1x64 .f32) (x9 : Vec F S64x2 .f32) (x10 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (blockOut x0 x1 x2 x3 x4 x5 x6 x7 x8 x9 x10)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (blockOut_cover _)

/-! ## The pipeline's proof data -/

/-- On core `c`: the arrays as the region finds them; after the body at point `t` each input buffer at its block and
    the output buffer at `blockOut` of the input blocks; nothing of the kernel's own to keep, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => blockOut (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = blockOut (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- At any point the inputs' buffers hold their blocks, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault; at the end each window's array holds what the
    library computes from the proof data, and every other unscoped buffer what the two slicing lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The program runs to the end, faults nowhere, and leaves its fifteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Around

end
-- ==== Proof.MlpSpec.lean ====
/-
  The decoder as mathematics, over the extended reals, index by index.
  WHOLE form (`hid1`, `hid2`, `head`): row r of the concatenated input is xi | h_A | h_B | E I L q (261 columns), the
  first layer is tanh (row · W1 + b1), written band by band — the two bands of 128 columns as sums, the five scalar
  columns as five products —, the second tanh (· W2 + b2), and a head is (· Wo + bo).
  BLOCK form (`hid1K`, `hid2K`, `outK`): what a fused body computes on a block of rows from PACKED operands — the
  scalar columns packed into 8 columns (three of them zero) against 8 packed rows of W1 (three of them zero), W1's two
  bands as separate 128×128 matrices, the biases as one-row matrices, the two heads side by side as 64×2.
  `hid1K_eq`, `hid2K_eq`, `outK_eq`: when the packed operands read as the whole arrays do, the block form at row p is
  the whole form at row r. The only laws used: a sum may be regrouped, 0 · 0 = 0, and x + 0 = x.
-/
import Idealize.ShloMosaic.PureOps.Ideal
import Idealize.ShloMosaic.Lib.ValueIdx
import Mathlib.Algebra.BigOperators.Fin

noncomputable section

namespace Cert.Mlp

open Idealize.ShloMosaic Idealize.ShloMosaic.ValueIdx

abbrev Mat (a b : ℕ) : Type := (⟨2, ![a, b]⟩ : Shape).Idx → EReal
abbrev Row (a : ℕ) : Type := (⟨1, ![a]⟩ : Shape).Idx → EReal

/-! ## The block form -/

section Block
variable {n : ℕ} (sc : Mat n 8) (hA hB : Mat n 128) (W1s : Mat 8 128) (W1a W1b : Mat 128 128) (b1 : Mat 1 128)
  (W2 : Mat 128 64) (b2 : Mat 1 64) (Wh : Mat 64 2) (bh : Mat 1 2)

def hid1K (p : Fin n) (l : Fin 128) : EReal :=
  Ideal.tanh ((((∑ a : Fin 128, hA (ix2 p a) * W1a (ix2 a l)) + ∑ a : Fin 128, hB (ix2 p a) * W1b (ix2 a l))
      + ∑ a : Fin 8, sc (ix2 p a) * W1s (ix2 a l)) + b1 (ix2 (0 : Fin 1) l))

def hid2K (p : Fin n) (k : Fin 64) : EReal :=
  Ideal.tanh ((∑ l : Fin 128, hid1K sc hA hB W1s W1a W1b b1 p l * W2 (ix2 l k)) + b2 (ix2 (0 : Fin 1) k))

def outK (p : Fin n) (j : Fin 2) : EReal :=
  (∑ k : Fin 64, hid2K sc hA hB W1s W1a W1b b1 W2 b2 p k * Wh (ix2 k j)) + bh (ix2 (0 : Fin 1) j)

end Block

/-! ## The whole form -/

section Whole
variable (xi : Mat 800000 1) (hA hB : Mat 800000 128) (E I L q : Mat 800000 1) (W1 : Mat 261 128) (b1 : Row 128)
  (W2 : Mat 128 64) (b2 : Row 64)

def hid1 (r : Fin 800000) (l : Fin 128) : EReal :=
  Ideal.tanh ((((∑ a : Fin 128, hA (ix2 r a) * W1 (ix2 (⟨1 + a.val, by have := a.isLt; omega⟩ : Fin 261) l))
        + ∑ a : Fin 128, hB (ix2 r a) * W1 (ix2 (⟨129 + a.val, by have := a.isLt; omega⟩ : Fin 261) l))
      + (xi (ix2 r (0 : Fin 1)) * W1 (ix2 (⟨0, by omega⟩ : Fin 261) l) + E (ix2 r (0 : Fin 1)) * W1 (ix2 (⟨257, by omega⟩ : Fin 261) l)
        + I (ix2 r (0 : Fin 1)) * W1 (ix2 (⟨258, by omega⟩ : Fin 261) l) + L (ix2 r (0 : Fin 1)) * W1 (ix2 (⟨259, by omega⟩ : Fin 261) l)
        + q (ix2 r (0 : Fin 1)) * W1 (ix2 (⟨260, by omega⟩ : Fin 261) l)))
    + b1 (ix1 l))

def hid2 (r : Fin 800000) (k : Fin 64) : EReal :=
  Ideal.tanh ((∑ l : Fin 128, hid1 xi hA hB E I L q W1 b1 r l * W2 (ix2 l k)) + b2 (ix1 k))

def head (Wo : Mat 64 1) (bo : Row 1) (r : Fin 800000) : EReal :=
  (∑ k : Fin 64, hid2 xi hA hB E I L q W1 b1 W2 b2 r k * Wo (ix2 k (0 : Fin 1))) + bo (ix1 (0 : Fin 1))

end Whole

/-! ## The block form at row p is the whole form at row r -/

section Bridge
variable {n : ℕ} (sc : Mat n 8) (hAb hBb : Mat n 128) (W1s : Mat 8 128) (W1a W1b : Mat 128 128) (b1r : Mat 1 128)
  (W2 : Mat 128 64) (b2r : Mat 1 64) (Wh : Mat 64 2) (bh : Mat 1 2)
  (xi : Mat 800000 1) (hA hB : Mat 800000 128) (E I L q : Mat 800000 1) (W1 : Mat 261 128) (b1 : Row 128)
  (b2 : Row 64) (Ww Wm : Mat 64 1) (bw bm : Row 1)
  (p : Fin n) (r : Fin 800000)

/-- How the packed first-layer operands read: the block's rows are the arrays' row r; the packed scalar columns are
    xi, E, I, L, q and three zeros; the packed rows of W1 are its row 0, its rows 257 … 260 and three zero rows; the two
    bands are W1's rows 1 … 128 and 129 … 256; the bias row is b1. -/
structure Reads1 : Prop where
  hA : ∀ a, hAb (ix2 p a) = hA (ix2 r a)
  hB : ∀ a, hBb (ix2 p a) = hB (ix2 r a)
  s0 : sc (ix2 p (0 : Fin 8)) = xi (ix2 r (0 : Fin 1))
  s1 : sc (ix2 p (1 : Fin 8)) = E (ix2 r (0 : Fin 1))
  s2 : sc (ix2 p (2 : Fin 8)) = I (ix2 r (0 : Fin 1))
  s3 : sc (ix2 p (3 : Fin 8)) = L (ix2 r (0 : Fin 1))
  s4 : sc (ix2 p (4 : Fin 8)) = q (ix2 r (0 : Fin 1))
  s5 : sc (ix2 p (5 : Fin 8)) = 0
  s6 : sc (ix2 p (6 : Fin 8)) = 0
  s7 : sc (ix2 p (7 : Fin 8)) = 0
  w0 : ∀ l, W1s (ix2 (0 : Fin 8) l) = W1 (ix2 (⟨0, by omega⟩ : Fin 261) l)
  w1 : ∀ l, W1s (ix2 (1 : Fin 8) l) = W1 (ix2 (⟨257, by omega⟩ : Fin 261) l)
  w2 : ∀ l, W1s (ix2 (2 : Fin 8) l) = W1 (ix2 (⟨258, by omega⟩ : Fin 261) l)
  w3 : ∀ l, W1s (ix2 (3 : Fin 8) l) = W1 (ix2 (⟨259, by omega⟩ : Fin 261) l)
  w4 : ∀ l, W1s (ix2 (4 : Fin 8) l) = W1 (ix2 (⟨260, by omega⟩ : Fin 261) l)
  w5 : ∀ l, W1s (ix2 (5 : Fin 8) l) = 0
  w6 : ∀ l, W1s (ix2 (6 : Fin 8) l) = 0
  w7 : ∀ l, W1s (ix2 (7 : Fin 8) l) = 0
  wa : ∀ a l, W1a (ix2 a l) = W1 (ix2 (⟨1 + a.val, by have := a.isLt; omega⟩ : Fin 261) l)
  wb : ∀ a l, W1b (ix2 a l) = W1 (ix2 (⟨129 + a.val, by have := a.isLt; omega⟩ : Fin 261) l)
  b : ∀ l, b1r (ix2 (0 : Fin 1) l) = b1 (ix1 l)

variable {sc hAb hBb W1s W1a W1b b1r W2 b2r Wh bh xi hA hB E I L q W1 b1 b2 p r}

theorem hid1K_eq (h : Reads1 sc hAb hBb W1s W1a W1b b1r xi hA hB E I L q W1 b1 p r) (l : Fin 128) :
    hid1K sc hAb hBb W1s W1a W1b b1r p l = hid1 xi hA hB E I L q W1 b1 r l := by
  unfold hid1K hid1
  rw [Fin.sum_univ_eight]
  simp only [h.hA, h.hB, h.s0, h.s1, h.s2, h.s3, h.s4, h.s5, h.s6, h.s7, h.w0, h.w1, h.w2, h.w3, h.w4, h.w5, h.w6, h.w7,
    h.wa, h.wb, h.b, mul_zero, add_zero]

theorem hid2K_eq (h : Reads1 sc hAb hBb W1s W1a W1b b1r xi hA hB E I L q W1 b1 p r)
    (hb2 : ∀ k, b2r (ix2 (0 : Fin 1) k) = b2 (ix1 k)) (k : Fin 64) :
    hid2K sc hAb hBb W1s W1a W1b b1r W2 b2r p k = hid2 xi hA hB E I L q W1 b1 W2 b2 r k := by
  unfold hid2K hid2
  simp only [hid1K_eq h, hb2]

/-- The packed head column j reads as head j's weights, and the packed head bias as its bias: then output column j of
    the block form is that head of the whole form. -/
theorem outK_eq (h : Reads1 sc hAb hBb W1s W1a W1b b1r xi hA hB E I L q W1 b1 p r)
    (hb2 : ∀ k, b2r (ix2 (0 : Fin 1) k) = b2 (ix1 k)) (j : Fin 2) (Wo : Mat 64 1) (bo : Row 1)
    (hW : ∀ k, Wh (ix2 k j) = Wo (ix2 k (0 : Fin 1))) (hb : bh (ix2 (0 : Fin 1) j) = bo (ix1 (0 : Fin 1))) :
    outK sc hAb hBb W1s W1a W1b b1r W2 b2r Wh bh p j = head xi hA hB E I L q W1 b1 W2 b2 Wo bo r := by
  unfold outK head
  simp only [hid2K_eq h hb2, hW, hb]

end Bridge

end Cert.Mlp

end
-- ==== Proof.KernelBody.lean ====
/-
  The block the kernel body stores, read at row p and column j of the block, at the ideal values: every matrix
  product into a zero accumulator is the plain sum over the contracted index, a bias row broadcast over the rows reads
  the row, a cast to the same shape is the identity, tanh acts entry by entry. So the stored block is the
  specification's block form `outK` of the eleven loaded blocks.
-/
import proofs.«138492_g85555748537205_cont_sun_m_819_2_alg».proof.Proof.KernelIdealAround
import proofs.«138492_g85555748537205_cont_sun_m_819_2_alg».proof.Proof.MlpSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Body

open Cert.KernelIdeal Cert.KernelIdeal.Gen Cert.KernelIdeal.Around
open Idealize.ShloMosaic Idealize.ShloMosaic.ValueIdx Idealize.ShloMosaic.Pipeline

theorem hz : (![0, 0] : Fin 2 → Nat) = fun _ => 0 := funext fun a => by fin_cases a <;> rfl

/-! ## Each matrix product at an output entry is the sum over the contracted index -/

theorem mmBand_l0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem mmBand_l1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem mmBand_r0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem mmBand_r1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- a row block times a 128×128 band of W1: entry (p, c) is the sum over k of left (p, k) times right (k, c). -/
theorem mmBand (l : FVec Ideal S4000x128 .f32) (r : FVec Ideal S128x128 .f32) (p : Fin 4000) (c : Fin 128) :
    matmul dot_S4000x128_S128x128_S4000x128_1_0_0_1_n_n none l r (constant (F := Ideal) S4000x128 .f32 0x00000000#32) (ix2 p c)
      = ∑ k : Fin 128, l (ix2 p k) * r (ix2 k c) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p c) ((ValueIdx.contrEquiv1 dot_S4000x128_S128x128_S4000x128_1_0_0_1_n_n 128 rfl rfl).symm k) = ix2 p k := funext fun a => Fin.ext (by
    match a with
    | ⟨0, _⟩ => exact mmBand_l0 _ _
    | ⟨1, _⟩ => exact (mmBand_l1 _ _).trans hk)
  have er : dot_S4000x128_S128x128_S4000x128_1_0_0_1_n_n.rhsIdx (ix2 p c) ((ValueIdx.contrEquiv1 dot_S4000x128_S128x128_S4000x128_1_0_0_1_n_n 128 rfl rfl).symm k) = ix2 k c := funext fun a => Fin.ext (by
    match a with
    | ⟨0, _⟩ => exact (mmBand_r0 _ _).trans hk
    | ⟨1, _⟩ => exact mmBand_r1 _ _)
  rw [el, er]

theorem mmScal_l0 (i : S4000x128.Idx) (q : dot_S4000x8_S8x128_S4000x128_1_0_0_1_n_n.contr.Idx) : (dot_S4000x8_S8x128_S4000x128_1_0_0_1_n_n.lhsIdx i q 0).val = (i 0).val := by
  unfold DotDims.lhsIdx
  rw [dif_neg (show ¬(0 : Fin S4000x8.rank) ∈ dot_S4000x8_S8x128_S4000x128_1_0_0_1_n_n.lhsBatch by decide), dif_pos (show (0 : Fin S4000x8.rank) ∈ dot_S4000x8_S8x128_S4000x128_1_0_0_1_n_n.lhsNonContracting by decide)]
  rfl
theorem mmScal_l1 (i : S4000x128.Idx) (q : dot_S4000x8_S8x128_S4000x128_1_0_0_1_n_n.contr.Idx) : (dot_S4000x8_S8x128_S4000x128_1_0_0_1_n_n.lhsIdx i q 1).val = (q ⟨0, by decide⟩).val :=
  dot_S4000x8_S8x128_S4000x128_1_0_0_1_n_n.lhsIdx_val_of_single rfl i q
theorem mmScal_r0 (i : S4000x128.Idx) (q : dot_S4000x8_S8x128_S4000x128_1_0_0_1_n_n.contr.Idx) : (dot_S4000x8_S8x128_S4000x128_1_0_0_1_n_n.rhsIdx i q 0).val = (q ⟨0, by decide⟩).val :=
  dot_S4000x8_S8x128_S4000x128_1_0_0_1_n_n.rhsIdx_val_of_single rfl i q
theorem mmScal_r1 (i : S4000x128.Idx) (q : dot_S4000x8_S8x128_S4000x128_1_0_0_1_n_n.contr.Idx) : (dot_S4000x8_S8x128_S4000x128_1_0_0_1_n_n.rhsIdx i q 1).val = (i 1).val := by
  unfold DotDims.rhsIdx
  rw [dif_neg (show ¬(1 : Fin S8x128.rank) ∈ dot_S4000x8_S8x128_S4000x128_1_0_0_1_n_n.rhsBatch by decide), dif_pos (show (1 : Fin S8x128.rank) ∈ dot_S4000x8_S8x128_S4000x128_1_0_0_1_n_n.rhsNonContracting by decide)]
  rfl

/-- the packed scalar columns times the packed rows of W1: entry (p, c) is the sum over k of left (p, k) times right (k, c). -/
theorem mmScal (l : FVec Ideal S4000x8 .f32) (r : FVec Ideal S8x128 .f32) (p : Fin 4000) (c : Fin 128) :
    matmul dot_S4000x8_S8x128_S4000x128_1_0_0_1_n_n none l r (constant (F := Ideal) S4000x128 .f32 0x00000000#32) (ix2 p c)
      = ∑ k : Fin 8, l (ix2 p k) * r (ix2 k c) := by
  simp only [matmul]
  rw [Ideal.matmul_constant_zero_apply, ← Equiv.sum_comp (ValueIdx.contrEquiv1 dot_S4000x8_S8x128_S4000x128_1_0_0_1_n_n 8 rfl rfl).symm]
  refine Finset.sum_congr rfl fun k _ => ?_
  have hk := ValueIdx.contrEquiv1_symm_val dot_S4000x8_S8x128_S4000x128_1_0_0_1_n_n 8 rfl rfl k
  have el : dot_S4000x8_S8x128_S4000x128_1_0_0_1_n_n.lhsIdx (ix2 p c) ((ValueIdx.contrEquiv1 dot_S4000x8_S8x128_S4000x128_1_0_0_1_n_n 8 rfl rfl).symm k) = ix2 p k := funext fun a => Fin.ext (by
    match a with
    | ⟨0, _⟩ => exact mmScal_l0 _ _
    | ⟨1, _⟩ => exact (mmScal_l1 _ _).trans hk)
  have er : dot_S4000x8_S8x128_S4000x128_1_0_0_1_n_n.rhsIdx (ix2 p c) ((ValueIdx.contrEquiv1 dot_S4000x8_S8x128_S4000x128_1_0_0_1_n_n 8 rfl rfl).symm k) = ix2 k c := funext fun a => Fin.ext (by
    match a with
    | ⟨0, _⟩ => exact (mmScal_r0 _ _).trans hk
    | ⟨1, _⟩ => exact mmScal_r1 _ _)
  rw [el, er]

theorem mmW2_l0 (i : S4000x64.Idx) (q : dot_S4000x128_S128x64_S4000x64_1_0_0_1_n_n.contr.Idx) : (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem mmW2_l1 (i : S4000x64.Idx) (q : dot_S4000x128_S128x64_S4000x64_1_0_0_1_n_n.contr.Idx) : (dot_S4000x128_S128x64_S4000x64_1_0_0_1_n_n.lhsIdx i q 1).val = (q ⟨0, by decide⟩).val :=
  dot_S4000x128_S128x64_S4000x64_1_0_0_1_n_n.lhsIdx_val_of_single rfl i q
theorem mmW2_r0 (i : S4000x64.Idx) (q : dot_S4000x128_S128x64_S4000x64_1_0_0_1_n_n.contr.Idx) : (dot_S4000x128_S128x64_S4000x64_1_0_0_1_n_n.rhsIdx i q 0).val = (q ⟨0, by decide⟩).val :=
  dot_S4000x128_S128x64_S4000x64_1_0_0_1_n_n.rhsIdx_val_of_single rfl i q
theorem mmW2_r1 (i : S4000x64.Idx) (q : dot_S4000x128_S128x64_S4000x64_1_0_0_1_n_n.contr.Idx) : (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- the first hidden layer times W2: entry (p, c) is the sum over k of left (p, k) times right (k, c). -/
theorem mmW2 (l : FVec Ideal S4000x128 .f32) (r : FVec Ideal S128x64 .f32) (p : Fin 4000) (c : Fin 64) :
    matmul dot_S4000x128_S128x64_S4000x64_1_0_0_1_n_n none l r (constant (F := Ideal) S4000x64 .f32 0x00000000#32) (ix2 p c)
      = ∑ k : Fin 128, l (ix2 p k) * r (ix2 k c) := by
  simp only [matmul]
  rw [Ideal.matmul_constant_zero_apply, ← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx (ix2 p c) ((ValueIdx.contrEquiv1 dot_S4000x128_S128x64_S4000x64_1_0_0_1_n_n 128 rfl rfl).symm k) = ix2 p k := funext fun a => Fin.ext (by
    match a with
    | ⟨0, _⟩ => exact mmW2_l0 _ _
    | ⟨1, _⟩ => exact (mmW2_l1 _ _).trans hk)
  have er : dot_S4000x128_S128x64_S4000x64_1_0_0_1_n_n.rhsIdx (ix2 p c) ((ValueIdx.contrEquiv1 dot_S4000x128_S128x64_S4000x64_1_0_0_1_n_n 128 rfl rfl).symm k) = ix2 k c := funext fun a => Fin.ext (by
    match a with
    | ⟨0, _⟩ => exact (mmW2_r0 _ _).trans hk
    | ⟨1, _⟩ => exact mmW2_r1 _ _)
  rw [el, er]

theorem mmHeads_l0 (i : S4000x2.Idx) (q : dot_S4000x64_S64x2_S4000x2_1_0_0_1_n_n.contr.Idx) : (dot_S4000x64_S64x2_S4000x2_1_0_0_1_n_n.lhsIdx i q 0).val = (i 0).val := by
  unfold DotDims.lhsIdx
  rw [dif_neg (show ¬(0 : Fin S4000x64.rank) ∈ dot_S4000x64_S64x2_S4000x2_1_0_0_1_n_n.lhsBatch by decide), dif_pos (show (0 : Fin S4000x64.rank) ∈ dot_S4000x64_S64x2_S4000x2_1_0_0_1_n_n.lhsNonContracting by decide)]
  rfl
theorem mmHeads_l1 (i : S4000x2.Idx) (q : dot_S4000x64_S64x2_S4000x2_1_0_0_1_n_n.contr.Idx) : (dot_S4000x64_S64x2_S4000x2_1_0_0_1_n_n.lhsIdx i q 1).val = (q ⟨0, by decide⟩).val :=
  dot_S4000x64_S64x2_S4000x2_1_0_0_1_n_n.lhsIdx_val_of_single rfl i q
theorem mmHeads_r0 (i : S4000x2.Idx) (q : dot_S4000x64_S64x2_S4000x2_1_0_0_1_n_n.contr.Idx) : (dot_S4000x64_S64x2_S4000x2_1_0_0_1_n_n.rhsIdx i q 0).val = (q ⟨0, by decide⟩).val :=
  dot_S4000x64_S64x2_S4000x2_1_0_0_1_n_n.rhsIdx_val_of_single rfl i q
theorem mmHeads_r1 (i : S4000x2.Idx) (q : dot_S4000x64_S64x2_S4000x2_1_0_0_1_n_n.contr.Idx) : (dot_S4000x64_S64x2_S4000x2_1_0_0_1_n_n.rhsIdx i q 1).val = (i 1).val := by
  unfold DotDims.rhsIdx
  rw [dif_neg (show ¬(1 : Fin S64x2.rank) ∈ dot_S4000x64_S64x2_S4000x2_1_0_0_1_n_n.rhsBatch by decide), dif_pos (show (1 : Fin S64x2.rank) ∈ dot_S4000x64_S64x2_S4000x2_1_0_0_1_n_n.rhsNonContracting by decide)]
  rfl

/-- the second hidden layer times the two heads side by side: entry (p, c) is the sum over k of left (p, k) times right (k, c). -/
theorem mmHeads (l : FVec Ideal S4000x64 .f32) (r : FVec Ideal S64x2 .f32) (p : Fin 4000) (c : Fin 2) :
    matmul dot_S4000x64_S64x2_S4000x2_1_0_0_1_n_n none l r (constant (F := Ideal) S4000x2 .f32 0x00000000#32) (ix2 p c)
      = ∑ k : Fin 64, l (ix2 p k) * r (ix2 k c) := by
  simp only [matmul]
  rw [Ideal.matmul_constant_zero_apply, ← Equiv.sum_comp (ValueIdx.contrEquiv1 dot_S4000x64_S64x2_S4000x2_1_0_0_1_n_n 64 rfl rfl).symm]
  refine Finset.sum_congr rfl fun k _ => ?_
  have hk := ValueIdx.contrEquiv1_symm_val dot_S4000x64_S64x2_S4000x2_1_0_0_1_n_n 64 rfl rfl k
  have el : dot_S4000x64_S64x2_S4000x2_1_0_0_1_n_n.lhsIdx (ix2 p c) ((ValueIdx.contrEquiv1 dot_S4000x64_S64x2_S4000x2_1_0_0_1_n_n 64 rfl rfl).symm k) = ix2 p k := funext fun a => Fin.ext (by
    match a with
    | ⟨0, _⟩ => exact mmHeads_l0 _ _
    | ⟨1, _⟩ => exact (mmHeads_l1 _ _).trans hk)
  have er : dot_S4000x64_S64x2_S4000x2_1_0_0_1_n_n.rhsIdx (ix2 p c) ((ValueIdx.contrEquiv1 dot_S4000x64_S64x2_S4000x2_1_0_0_1_n_n 64 rfl rfl).symm k) = ix2 k c := funext fun a => Fin.ext (by
    match a with
    | ⟨0, _⟩ => exact (mmHeads_r0 _ _).trans hk
    | ⟨1, _⟩ => exact mmHeads_r1 _ _)
  rw [el, er]

/-! ## The payloads -/

/-- The first hidden layer of the block at (p, l). -/
theorem hidden1_apply (x1 : FVec Ideal S4000x128 .f32) (x4 : FVec Ideal S128x128 .f32) (x2 : FVec Ideal S4000x128 .f32) (x5 : FVec Ideal S128x128 .f32)
    (x0 : FVec Ideal S4000x8 .f32) (x3 : FVec Ideal S8x128 .f32) (x6 : FVec Ideal S1x128 .f32) (hb : S1x128.Broadcasts S4000x128) (p : Fin 4000) (l : Fin 128) :
    tanh (addf (addf (addf (matmul dot_S4000x128_S128x128_S4000x128_1_0_0_1_n_n none x1 x4 (constant (F := Ideal) S4000x128 .f32 0x00000000#32))
        (matmul dot_S4000x128_S128x128_S4000x128_1_0_0_1_n_n none x2 x5 (constant (F := Ideal) S4000x128 .f32 0x00000000#32)))
        (matmul dot_S4000x8_S8x128_S4000x128_1_0_0_1_n_n none x0 x3 (constant (F := Ideal) S4000x128 .f32 0x00000000#32)))
        (broadcastTo S4000x128 x6 hb)) (ix2 p l)
      = Cert.Mlp.hid1K x0 x1 x2 x3 x4 x5 x6 p l := by
  show Ideal.tanh (((matmul dot_S4000x128_S128x128_S4000x128_1_0_0_1_n_n none x1 x4 (constant (F := Ideal) S4000x128 .f32 0x00000000#32) (ix2 p l)
      + matmul dot_S4000x128_S128x128_S4000x128_1_0_0_1_n_n none x2 x5 (constant (F := Ideal) S4000x128 .f32 0x00000000#32) (ix2 p l))
      + matmul dot_S4000x8_S8x128_S4000x128_1_0_0_1_n_n none x0 x3 (constant (F := Ideal) S4000x128 .f32 0x00000000#32) (ix2 p l))
      + broadcastTo S4000x128 x6 hb (ix2 p l)) = _
  rw [mmBand, mmBand, mmScal, broadcastTo_1b_ab_apply]
  rfl

/-- The product with the two heads, at (p, j): the sum over the second hidden layer. -/
theorem pay2_apply (x1 : Vec Ideal S4000x128 .f32) (x4 : Vec Ideal S128x128 .f32) (x2 : Vec Ideal S4000x128 .f32) (x5 : Vec Ideal S128x128 .f32)
    (x0 : Vec Ideal S4000x8 .f32) (x3 : Vec Ideal S8x128 .f32) (x6 : Vec Ideal S1x128 .f32) (x7 : Vec Ideal S128x64 .f32) (x8 : Vec Ideal S1x64 .f32)
    (x9 : Vec Ideal S64x2 .f32) (p : Fin 4000) (j : Fin 2) :
    k0_pay2 (F := Ideal) x1 x4 x2 x5 x0 x3 x6 x7 x8 x9 (ix2 p j)
      = ∑ k : Fin 64, Cert.Mlp.hid2K x0 x1 x2 x3 x4 x5 x6 x7 x8 p k * x9 (ix2 k j) := by
  unfold k0_pay2
  simp only [shapeCast_self]
  rw [mmHeads]
  refine Finset.sum_congr rfl fun k _ => congrArg (· * x9 (ix2 k j)) ?_
  show Ideal.tanh (matmul dot_S4000x128_S128x64_S4000x64_1_0_0_1_n_n none (φ₁ := .f32) _ (x7 : FVec Ideal S128x64 .f32) (constant (F := Ideal) S4000x64 .f32 0x00000000#32) (ix2 p k)
      + broadcastTo S4000x64 x8 _ (ix2 p k)) = _
  rw [mmW2, broadcastTo_1b_ab_apply]
  unfold Cert.Mlp.hid2K
  refine congrArg Ideal.tanh (congrArg (· + x8 (ix2 (0 : Fin 1) k)) (Finset.sum_congr rfl fun l _ => congrArg (· * x7 (ix2 l k)) ?_))
  exact hidden1_apply x1 x4 x2 x5 x0 x3 x6 _ p l

/-- THE STORED BLOCK at (p, j) is the block form of the eleven loaded blocks. -/
theorem blockOut_apply (x0 : Vec Ideal S4000x8 .f32) (x1 x2 : Vec Ideal S4000x128 .f32) (x3 : Vec Ideal S8x128 .f32) (x4 x5 : Vec Ideal S128x128 .f32)
    (x6 : Vec Ideal S1x128 .f32) (x7 : Vec Ideal S128x64 .f32) (x8 : Vec Ideal S1x64 .f32) (x9 : Vec Ideal S64x2 .f32) (x10 : Vec Ideal S1x2 .f32)
    (p : Fin 4000) (j : Fin 2) :
    blockOut (F := Ideal) x0 x1 x2 x3 x4 x5 x6 x7 x8 x9 x10 (ix2 p j) = Cert.Mlp.outK x0 x1 x2 x3 x4 x5 x6 x7 x8 x9 x10 p j := by
  unfold blockOut
  rw [View.canon_unit_zero hz]
  simp only [View.ld_unit_zero (S := S4000x8) hz, View.ld_unit_zero (S := S4000x128) hz, View.ld_unit_zero (S := S8x128) hz,
    View.ld_unit_zero (S := S128x128) hz, View.ld_unit_zero (S := S1x128) hz, View.ld_unit_zero (S := S128x64) hz,
    View.ld_unit_zero (S := S1x64) hz, View.ld_unit_zero (S := S64x2) hz, View.ld_unit_zero (S := S1x2) hz]
  unfold k0_pay1 k0_pay3
  simp only [shapeCast_self]
  show k0_pay2 (F := Ideal) x1 x4 x2 x5 x0 x3 x6 x7 x8 x9 (ix2 p j) + broadcastTo S4000x2 x10 _ (ix2 p j) = _
  rw [pay2_apply, broadcastTo_1b_ab_apply]
  rfl

end Cert.KernelIdeal.Body

end
-- ==== Proof.KernelArrays.lean ====
/-
  The kernel's arrays at the ideal values. The host lines before the region build the packed operands out of the
  arguments; read at an index each is an argument's entry or zero. Grid point t stages rows 4000 t … 4000 t + 3999 of the
  three row arrays and the whole of every other operand, so the block the body stores at point t, at (p, j), is head j
  of row 4000 t + p (`MlpSpec`). The 200 blocks tile the 800000 × 2 result, which therefore ends at `G`: column 0 the
  head with (Ww, bw), column 1 the head with (Wm, bm); the two host lines after the region cut those columns out.
-/
import proofs.«138492_g85555748537205_cont_sun_m_819_2_alg».proof.Proof.KernelBody
import Idealize.ShloMosaic.Lib.StableHlo.Run

set_option maxRecDepth 16384

noncomputable section

namespace Cert.KernelIdeal.Arrays

open Cert.KernelIdeal Cert.KernelIdeal.Gen Cert.KernelIdeal.Around Cert.KernelIdeal.Body Cert.Mlp
open Idealize.ShloMosaic Idealize.ShloMosaic.ValueIdx Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The packed operands, as the host lines build them -/

theorem V_scal (c : Dev nD) : (V m c main_v1 : S800000x8.Idx → EReal)
    = concatenate S800000x8 1 [⟨S800000x1, (m ((c : Thread nD τ).loc main_arg0))⟩, ⟨S800000x1, (m ((c : Thread nD τ).loc main_arg3))⟩, ⟨S800000x1, (m ((c : Thread nD τ).loc main_arg4))⟩, ⟨S800000x1, (m ((c : Thread nD τ).loc main_arg5))⟩, ⟨S800000x1, (m ((c : Thread nD τ).loc main_arg6))⟩,
        ⟨S800000x3, broadcastInDim S800000x3 ![] bcast_S_S800000x3 (constant (F := Ideal) S_ .f32 0x00000000#32)⟩]
        concatenates_S800000x1_S800000x1_S800000x1_S800000x1_S800000x1_S800000x3_S800000x8_d1 := by
  show StableHlo.after hostOps0 (fun b => m (c, b)) (Proc.devRef .tc main_v1) = _
  after_results <;> rfl

theorem V_w1s (c : Dev nD) : (V m c main_v5 : S8x128.Idx → EReal)
    = concatenate S8x128 0 [⟨S1x128, extractStridedSlice S1x128 ![0, 0] (m ((c : Thread nD τ).loc main_arg7)) slices_S261x128_S1x128_0_0⟩,
        ⟨S4x128, extractStridedSlice S4x128 ![257, 0] (m ((c : Thread nD τ).loc main_arg7)) slices_S261x128_S4x128_257_0⟩,
        ⟨S3x128, broadcastInDim S3x128 ![] bcast_S_S3x128 (constant (F := Ideal) S_ .f32 0x00000000#32)⟩]
        concatenates_S1x128_S4x128_S3x128_S8x128_d0 := by
  show StableHlo.after hostOps0 (fun b => m (c, b)) (Proc.devRef .tc main_v5) = _
  after_results <;> rfl

theorem V_w1a (c : Dev nD) : (V m c main_v6 : S128x128.Idx → EReal) = extractStridedSlice S128x128 ![1, 0] (m ((c : Thread nD τ).loc main_arg7)) slices_S261x128_S128x128_1_0 := by
  show StableHlo.after hostOps0 (fun b => m (c, b)) (Proc.devRef .tc main_v6) = _
  after_results <;> rfl

theorem V_w1b (c : Dev nD) : (V m c main_v7 : S128x128.Idx → EReal) = extractStridedSlice S128x128 ![129, 0] (m ((c : Thread nD τ).loc main_arg7)) slices_S261x128_S128x128_129_0 := by
  show StableHlo.after hostOps0 (fun b => m (c, b)) (Proc.devRef .tc main_v7) = _
  after_results <;> rfl

theorem V_heads (c : Dev nD) : (V m c main_v8 : S64x2.Idx → EReal)
    = concatenate S64x2 1 [⟨S64x1, (m ((c : Thread nD τ).loc main_arg11))⟩, ⟨S64x1, (m ((c : Thread nD τ).loc main_arg13))⟩] concatenates_S64x1_S64x1_S64x2_d1 := by
  show StableHlo.after hostOps0 (fun b => m (c, b)) (Proc.devRef .tc main_v8) = _
  after_results <;> rfl

theorem V_bh (c : Dev nD) : (V m c main_v10 : S1x2.Idx → EReal)
    = shapeCast S1x2 (concatenate S2 0 [⟨S1, (m ((c : Thread nD τ).loc main_arg12))⟩, ⟨S1, (m ((c : Thread nD τ).loc main_arg14))⟩] concatenates_S1_S1_S2_d0) shapeCasts_S2_S1x2 := by
  show StableHlo.after hostOps0 (fun b => m (c, b)) (Proc.devRef .tc main_v10) = _
  after_results <;> rfl

theorem V_b1 (c : Dev nD) : (V m c main_v11 : S1x128.Idx → EReal) = shapeCast S1x128 (m ((c : Thread nD τ).loc main_arg8)) shapeCasts_S128_S1x128 := by
  show StableHlo.after hostOps0 (fun b => m (c, b)) (Proc.devRef .tc main_v11) = _
  after_results <;> rfl

theorem V_b2 (c : Dev nD) : (V m c main_v12 : S1x64.Idx → EReal) = shapeCast S1x64 (m ((c : Thread nD τ).loc main_arg10)) shapeCasts_S64_S1x64 := by
  show StableHlo.after hostOps0 (fun b => m (c, b)) (Proc.devRef .tc main_v12) = _
  after_results <;> rfl

/-! ## The packed operands read at an index -/

/-- A splat of the zero word reads zero everywhere. -/
theorem zeros_apply {t : Shape} (h : S_.BroadcastsInDim t (![] : Fin 0 → Fin t.rank)) (j : t.Idx) :
    broadcastInDim t ![] h (constant (F := Ideal) S_ .f32 0x00000000#32) j = (0 : EReal) := by
  rw [broadcastInDim_apply _ h _ j (fun a => a.elim0) (fun a => a.elim0)]
  exact Ideal.ofBits_zero_f32

theorem scal_c0 (c : Dev nD) (r : Fin 800000) : (V m c main_v1 : S800000x8.Idx → EReal) (ix2 r (0 : Fin 8)) = ((m ((c : Thread nD τ).loc main_arg0)) : S800000x1.Idx → EReal) (ix2 r (0 : Fin 1)) := by
  rw [V_scal]
  refine concatenate_apply_piece (t := S800000x8) (1 : Fin 2) _ _ _ 0 ?_ S800000x1 (m ((c : Thread nD τ).loc main_arg0)) ?_ ?_ 0 ?_ (ix2 r (0 : Fin 1)) ?_ ?_
  · simp
  · rfl
  · rfl
  · rfl
  · intro b hb
    match b with
    | ⟨0, _⟩ => rfl
    | ⟨1, _⟩ => exact absurd rfl hb
  · rfl

theorem scal_c1 (c : Dev nD) (r : Fin 800000) : (V m c main_v1 : S800000x8.Idx → EReal) (ix2 r (1 : Fin 8)) = ((m ((c : Thread nD τ).loc main_arg3)) : S800000x1.Idx → EReal) (ix2 r (0 : Fin 1)) := by
  rw [V_scal]
  refine concatenate_apply_piece (t := S800000x8) (1 : Fin 2) _ _ _ 1 ?_ S800000x1 (m ((c : Thread nD τ).loc main_arg3)) ?_ ?_ 1 ?_ (ix2 r (0 : Fin 1)) ?_ ?_
  · simp
  · rfl
  · rfl
  · rfl
  · intro b hb
    match b with
    | ⟨0, _⟩ => rfl
    | ⟨1, _⟩ => exact absurd rfl hb
  · rfl

theorem scal_c2 (c : Dev nD) (r : Fin 800000) : (V m c main_v1 : S800000x8.Idx → EReal) (ix2 r (2 : Fin 8)) = ((m ((c : Thread nD τ).loc main_arg4)) : S800000x1.Idx → EReal) (ix2 r (0 : Fin 1)) := by
  rw [V_scal]
  refine concatenate_apply_piece (t := S800000x8) (1 : Fin 2) _ _ _ 2 ?_ S800000x1 (m ((c : Thread nD τ).loc main_arg4)) ?_ ?_ 2 ?_ (ix2 r (0 : Fin 1)) ?_ ?_
  · simp
  · rfl
  · rfl
  · rfl
  · intro b hb
    match b with
    | ⟨0, _⟩ => rfl
    | ⟨1, _⟩ => exact absurd rfl hb
  · rfl

theorem scal_c3 (c : Dev nD) (r : Fin 800000) : (V m c main_v1 : S800000x8.Idx → EReal) (ix2 r (3 : Fin 8)) = ((m ((c : Thread nD τ).loc main_arg5)) : S800000x1.Idx → EReal) (ix2 r (0 : Fin 1)) := by
  rw [V_scal]
  refine concatenate_apply_piece (t := S800000x8) (1 : Fin 2) _ _ _ 3 ?_ S800000x1 (m ((c : Thread nD τ).loc main_arg5)) ?_ ?_ 3 ?_ (ix2 r (0 : Fin 1)) ?_ ?_
  · simp
  · rfl
  · rfl
  · rfl
  · intro b hb
    match b with
    | ⟨0, _⟩ => rfl
    | ⟨1, _⟩ => exact absurd rfl hb
  · rfl

theorem scal_c4 (c : Dev nD) (r : Fin 800000) : (V m c main_v1 : S800000x8.Idx → EReal) (ix2 r (4 : Fin 8)) = ((m ((c : Thread nD τ).loc main_arg6)) : S800000x1.Idx → EReal) (ix2 r (0 : Fin 1)) := by
  rw [V_scal]
  refine concatenate_apply_piece (t := S800000x8) (1 : Fin 2) _ _ _ 4 ?_ S800000x1 (m ((c : Thread nD τ).loc main_arg6)) ?_ ?_ 4 ?_ (ix2 r (0 : Fin 1)) ?_ ?_
  · simp
  · rfl
  · rfl
  · rfl
  · intro b hb
    match b with
    | ⟨0, _⟩ => rfl
    | ⟨1, _⟩ => exact absurd rfl hb
  · rfl

theorem scal_c5 (c : Dev nD) (r : Fin 800000) : (V m c main_v1 : S800000x8.Idx → EReal) (ix2 r (5 : Fin 8)) = (0 : EReal) := by
  rw [V_scal]
  refine (concatenate_apply_piece (t := S800000x8) (1 : Fin 2) _ _ _ 5 ?_ S800000x3
    (broadcastInDim S800000x3 ![] bcast_S_S800000x3 (constant (F := Ideal) S_ .f32 0x00000000#32)) ?_ ?_ 5 ?_ (ix2 r (0 : Fin 3)) ?_ ?_).trans ?_
  · simp
  · rfl
  · rfl
  · rfl
  · intro b hb
    match b with
    | ⟨0, _⟩ => rfl
    | ⟨1, _⟩ => exact absurd rfl hb
  · rfl
  · exact zeros_apply _ _

theorem scal_c6 (c : Dev nD) (r : Fin 800000) : (V m c main_v1 : S800000x8.Idx → EReal) (ix2 r (6 : Fin 8)) = (0 : EReal) := by
  rw [V_scal]
  refine (concatenate_apply_piece (t := S800000x8) (1 : Fin 2) _ _ _ 5 ?_ S800000x3
    (broadcastInDim S800000x3 ![] bcast_S_S800000x3 (constant (F := Ideal) S_ .f32 0x00000000#32)) ?_ ?_ 5 ?_ (ix2 r (1 : Fin 3)) ?_ ?_).trans ?_
  · simp
  · rfl
  · rfl
  · rfl
  · intro b hb
    match b with
    | ⟨0, _⟩ => rfl
    | ⟨1, _⟩ => exact absurd rfl hb
  · rfl
  · exact zeros_apply _ _

theorem scal_c7 (c : Dev nD) (r : Fin 800000) : (V m c main_v1 : S800000x8.Idx → EReal) (ix2 r (7 : Fin 8)) = (0 : EReal) := by
  rw [V_scal]
  refine (concatenate_apply_piece (t := S800000x8) (1 : Fin 2) _ _ _ 5 ?_ S800000x3
    (broadcastInDim S800000x3 ![] bcast_S_S800000x3 (constant (F := Ideal) S_ .f32 0x00000000#32)) ?_ ?_ 5 ?_ (ix2 r (2 : Fin 3)) ?_ ?_).trans ?_
  · simp
  · rfl
  · rfl
  · rfl
  · intro b hb
    match b with
    | ⟨0, _⟩ => rfl
    | ⟨1, _⟩ => exact absurd rfl hb
  · rfl
  · exact zeros_apply _ _

theorem w1s_r0 (c : Dev nD) (l : Fin 128) : (V m c main_v5 : S8x128.Idx → EReal) (ix2 (0 : Fin 8) l) = ((m ((c : Thread nD τ).loc main_arg7)) : S261x128.Idx → EReal) (ix2 (⟨0, by omega⟩ : Fin 261) l) := by
  rw [V_w1s]
  refine (concatenate_apply_piece (t := S8x128) (0 : Fin 2) _ _ _ 0 ?_ S1x128
    (extractStridedSlice S1x128 ![0, 0] (m ((c : Thread nD τ).loc main_arg7)) slices_S261x128_S1x128_0_0) ?_ ?_ 0 ?_ (ix2 (0 : Fin 1) l) ?_ ?_).trans ?_
  · simp
  · rfl
  · rfl
  · rfl
  · intro b hb
    match b with
    | ⟨0, _⟩ => exact absurd rfl hb
    | ⟨1, _⟩ => rfl
  · rfl
  · exact slice2_axis0_apply 0 _ slices_S261x128_S1x128_0_0 (0 : Fin 1) l _ rfl

theorem w1s_r1 (c : Dev nD) (l : Fin 128) : (V m c main_v5 : S8x128.Idx → EReal) (ix2 (1 : Fin 8) l) = ((m ((c : Thread nD τ).loc main_arg7)) : S261x128.Idx → EReal) (ix2 (⟨257, by omega⟩ : Fin 261) l) := by
  rw [V_w1s]
  refine (concatenate_apply_piece (t := S8x128) (0 : Fin 2) _ _ _ 1 ?_ S4x128
    (extractStridedSlice S4x128 ![257, 0] (m ((c : Thread nD τ).loc main_arg7)) slices_S261x128_S4x128_257_0) ?_ ?_ 1 ?_ (ix2 (0 : Fin 4) l) ?_ ?_).trans ?_
  · simp
  · rfl
  · rfl
  · rfl
  · intro b hb
    match b with
    | ⟨0, _⟩ => exact absurd rfl hb
    | ⟨1, _⟩ => rfl
  · rfl
  · exact slice2_axis0_apply 257 _ slices_S261x128_S4x128_257_0 (0 : Fin 4) l _ rfl

theorem w1s_r2 (c : Dev nD) (l : Fin 128) : (V m c main_v5 : S8x128.Idx → EReal) (ix2 (2 : Fin 8) l) = ((m ((c : Thread nD τ).loc main_arg7)) : S261x128.Idx → EReal) (ix2 (⟨258, by omega⟩ : Fin 261) l) := by
  rw [V_w1s]
  refine (concatenate_apply_piece (t := S8x128) (0 : Fin 2) _ _ _ 1 ?_ S4x128
    (extractStridedSlice S4x128 ![257, 0] (m ((c : Thread nD τ).loc main_arg7)) slices_S261x128_S4x128_257_0) ?_ ?_ 1 ?_ (ix2 (1 : Fin 4) l) ?_ ?_).trans ?_
  · simp
  · rfl
  · rfl
  · rfl
  · intro b hb
    match b with
    | ⟨0, _⟩ => exact absurd rfl hb
    | ⟨1, _⟩ => rfl
  · rfl
  · exact slice2_axis0_apply 257 _ slices_S261x128_S4x128_257_0 (1 : Fin 4) l _ rfl

theorem w1s_r3 (c : Dev nD) (l : Fin 128) : (V m c main_v5 : S8x128.Idx → EReal) (ix2 (3 : Fin 8) l) = ((m ((c : Thread nD τ).loc main_arg7)) : S261x128.Idx → EReal) (ix2 (⟨259, by omega⟩ : Fin 261) l) := by
  rw [V_w1s]
  refine (concatenate_apply_piece (t := S8x128) (0 : Fin 2) _ _ _ 1 ?_ S4x128
    (extractStridedSlice S4x128 ![257, 0] (m ((c : Thread nD τ).loc main_arg7)) slices_S261x128_S4x128_257_0) ?_ ?_ 1 ?_ (ix2 (2 : Fin 4) l) ?_ ?_).trans ?_
  · simp
  · rfl
  · rfl
  · rfl
  · intro b hb
    match b with
    | ⟨0, _⟩ => exact absurd rfl hb
    | ⟨1, _⟩ => rfl
  · rfl
  · exact slice2_axis0_apply 257 _ slices_S261x128_S4x128_257_0 (2 : Fin 4) l _ rfl

theorem w1s_r4 (c : Dev nD) (l : Fin 128) : (V m c main_v5 : S8x128.Idx → EReal) (ix2 (4 : Fin 8) l) = ((m ((c : Thread nD τ).loc main_arg7)) : S261x128.Idx → EReal) (ix2 (⟨260, by omega⟩ : Fin 261) l) := by
  rw [V_w1s]
  refine (concatenate_apply_piece (t := S8x128) (0 : Fin 2) _ _ _ 1 ?_ S4x128
    (extractStridedSlice S4x128 ![257, 0] (m ((c : Thread nD τ).loc main_arg7)) slices_S261x128_S4x128_257_0) ?_ ?_ 1 ?_ (ix2 (3 : Fin 4) l) ?_ ?_).trans ?_
  · simp
  · rfl
  · rfl
  · rfl
  · intro b hb
    match b with
    | ⟨0, _⟩ => exact absurd rfl hb
    | ⟨1, _⟩ => rfl
  · rfl
  · exact slice2_axis0_apply 257 _ slices_S261x128_S4x128_257_0 (3 : Fin 4) l _ rfl

theorem w1s_r5 (c : Dev nD) (l : Fin 128) : (V m c main_v5 : S8x128.Idx → EReal) (ix2 (5 : Fin 8) l) = (0 : EReal) := by
  rw [V_w1s]
  refine (concatenate_apply_piece (t := S8x128) (0 : Fin 2) _ _ _ 2 ?_ S3x128
    (broadcastInDim S3x128 ![] bcast_S_S3x128 (constant (F := Ideal) S_ .f32 0x00000000#32)) ?_ ?_ 5 ?_ (ix2 (0 : Fin 3) l) ?_ ?_).trans ?_
  · simp
  · rfl
  · rfl
  · rfl
  · intro b hb
    match b with
    | ⟨0, _⟩ => exact absurd rfl hb
    | ⟨1, _⟩ => rfl
  · rfl
  · exact zeros_apply _ _

theorem w1s_r6 (c : Dev nD) (l : Fin 128) : (V m c main_v5 : S8x128.Idx → EReal) (ix2 (6 : Fin 8) l) = (0 : EReal) := by
  rw [V_w1s]
  refine (concatenate_apply_piece (t := S8x128) (0 : Fin 2) _ _ _ 2 ?_ S3x128
    (broadcastInDim S3x128 ![] bcast_S_S3x128 (constant (F := Ideal) S_ .f32 0x00000000#32)) ?_ ?_ 5 ?_ (ix2 (1 : Fin 3) l) ?_ ?_).trans ?_
  · simp
  · rfl
  · rfl
  · rfl
  · intro b hb
    match b with
    | ⟨0, _⟩ => exact absurd rfl hb
    | ⟨1, _⟩ => rfl
  · rfl
  · exact zeros_apply _ _

theorem w1s_r7 (c : Dev nD) (l : Fin 128) : (V m c main_v5 : S8x128.Idx → EReal) (ix2 (7 : Fin 8) l) = (0 : EReal) := by
  rw [V_w1s]
  refine (concatenate_apply_piece (t := S8x128) (0 : Fin 2) _ _ _ 2 ?_ S3x128
    (broadcastInDim S3x128 ![] bcast_S_S3x128 (constant (F := Ideal) S_ .f32 0x00000000#32)) ?_ ?_ 5 ?_ (ix2 (2 : Fin 3) l) ?_ ?_).trans ?_
  · simp
  · rfl
  · rfl
  · rfl
  · intro b hb
    match b with
    | ⟨0, _⟩ => exact absurd rfl hb
    | ⟨1, _⟩ => rfl
  · rfl
  · exact zeros_apply _ _

theorem w1a_apply (c : Dev nD) (a l : Fin 128) : (V m c main_v6 : S128x128.Idx → EReal) (ix2 a l) = ((m ((c : Thread nD τ).loc main_arg7)) : S261x128.Idx → EReal) (ix2 (⟨1 + a.val, by have := a.isLt; omega⟩ : Fin 261) l) := by
  rw [V_w1a]
  exact slice2_axis0_apply 1 _ slices_S261x128_S128x128_1_0 a l _ rfl

theorem w1b_apply (c : Dev nD) (a l : Fin 128) : (V m c main_v7 : S128x128.Idx → EReal) (ix2 a l) = ((m ((c : Thread nD τ).loc main_arg7)) : S261x128.Idx → EReal) (ix2 (⟨129 + a.val, by have := a.isLt; omega⟩ : Fin 261) l) := by
  rw [V_w1b]
  exact slice2_axis0_apply 129 _ slices_S261x128_S128x128_129_0 a l _ rfl

theorem b1_apply (c : Dev nD) (l : Fin 128) : (V m c main_v11 : S1x128.Idx → EReal) (ix2 (0 : Fin 1) l) = ((m ((c : Thread nD τ).loc main_arg8)) : S128.Idx → EReal) (ix1 l) := by
  rw [V_b1]
  exact shapeCast_a_1a_apply _ _ (0 : Fin 1) l

theorem b2_apply (c : Dev nD) (k : Fin 64) : (V m c main_v12 : S1x64.Idx → EReal) (ix2 (0 : Fin 1) k) = ((m ((c : Thread nD τ).loc main_arg10)) : S64.Idx → EReal) (ix1 k) := by
  rw [V_b2]
  exact shapeCast_a_1a_apply _ _ (0 : Fin 1) k

theorem heads_c0 (c : Dev nD) (k : Fin 64) : (V m c main_v8 : S64x2.Idx → EReal) (ix2 k (0 : Fin 2)) = ((m ((c : Thread nD τ).loc main_arg11)) : S64x1.Idx → EReal) (ix2 k (0 : Fin 1)) := by
  rw [V_heads]
  refine concatenate_apply_piece (t := S64x2) (1 : Fin 2) _ _ _ 0 ?_ S64x1 (m ((c : Thread nD τ).loc main_arg11)) ?_ ?_ 0 ?_ (ix2 k (0 : Fin 1)) ?_ ?_
  · simp
  · rfl
  · rfl
  · rfl
  · intro b hb
    match b with
    | ⟨0, _⟩ => rfl
    | ⟨1, _⟩ => exact absurd rfl hb
  · rfl

theorem heads_c1 (c : Dev nD) (k : Fin 64) : (V m c main_v8 : S64x2.Idx → EReal) (ix2 k (1 : Fin 2)) = ((m ((c : Thread nD τ).loc main_arg13)) : S64x1.Idx → EReal) (ix2 k (0 : Fin 1)) := by
  rw [V_heads]
  refine concatenate_apply_piece (t := S64x2) (1 : Fin 2) _ _ _ 1 ?_ S64x1 (m ((c : Thread nD τ).loc main_arg13)) ?_ ?_ 1 ?_ (ix2 k (0 : Fin 1)) ?_ ?_
  · simp
  · rfl
  · rfl
  · rfl
  · intro b hb
    match b with
    | ⟨0, _⟩ => rfl
    | ⟨1, _⟩ => exact absurd rfl hb
  · rfl

theorem bh_c0 (c : Dev nD) : (V m c main_v10 : S1x2.Idx → EReal) (ix2 (0 : Fin 1) (0 : Fin 2)) = ((m ((c : Thread nD τ).loc main_arg12)) : S1.Idx → EReal) (ix1 (0 : Fin 1)) := by
  rw [V_bh]
  refine (shapeCast_a_1a_apply _ _ (0 : Fin 1) (0 : Fin 2)).trans ?_
  refine concatenate_apply_piece (t := S2) (0 : Fin 1) _ _ _ 0 ?_ S1 (m ((c : Thread nD τ).loc main_arg12)) ?_ ?_ 0 ?_ (ix1 (0 : Fin 1)) ?_ ?_
  · simp
  · rfl
  · rfl
  · rfl
  · intro b hb
    match b with
    | ⟨0, _⟩ => exact absurd rfl hb
  · rfl

theorem bh_c1 (c : Dev nD) : (V m c main_v10 : S1x2.Idx → EReal) (ix2 (0 : Fin 1) (1 : Fin 2)) = ((m ((c : Thread nD τ).loc main_arg14)) : S1.Idx → EReal) (ix1 (0 : Fin 1)) := by
  rw [V_bh]
  refine (shapeCast_a_1a_apply _ _ (0 : Fin 1) (1 : Fin 2)).trans ?_
  refine concatenate_apply_piece (t := S2) (0 : Fin 1) _ _ _ 1 ?_ S1 (m ((c : Thread nD τ).loc main_arg14)) ?_ ?_ 1 ?_ (ix1 (0 : Fin 1)) ?_ ?_
  · simp
  · rfl
  · rfl
  · rfl
  · intro b hb
    match b with
    | ⟨0, _⟩ => exact absurd rfl hb
  · rfl

/-! ## The blocks, read off the arrays -/

/-- The row of the arrays that row p of grid point t's block is. -/
def rowOf (t : Fin cfg0.N) (p : Fin 4000) : Fin 800000 :=
  ⟨4000 * t.val + p.val, by have := t.isLt; have := p.isLt; have h : cfg0.N = 200 := N_0; omega⟩
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

theorem blk0 (c : Dev nD) (t : Fin cfg0.N) (p : Fin 4000) (q : Fin 8) :
    (iblk m c 0 t : Vec Ideal S4000x8 .f32) (ix2 p q) = (V m c main_v1 : S800000x8.Idx → EReal) (ix2 (rowOf t p) q) := by
  unfold iblk
  rw [View.read_apply]
  show V m c main_v1 _ = V m c main_v1 _
  congr 1
  funext a
  apply Fin.ext
  match a with
  | ⟨0, _⟩ => show win0_0.index t (0 : Fin 2) * 4000 + 1 * p.val = 4000 * t.val + p.val; rw [(idx0 t).1]; omega
  | ⟨1, _⟩ => show win0_0.index t (1 : Fin 2) * 8 + 1 * q.val = q.val; rw [(idx0 t).2]; omega

theorem blk1 (c : Dev nD) (t : Fin cfg0.N) (p : Fin 4000) (q : Fin 128) :
    (iblk m c 1 t : Vec Ideal S4000x128 .f32) (ix2 p q) = (V m c main_arg1 : S800000x128.Idx → EReal) (ix2 (rowOf t p) q) := by
  unfold iblk
  rw [View.read_apply]
  show V m c main_arg1 _ = V m c main_arg1 _
  congr 1
  funext a
  apply Fin.ext
  match a with
  | ⟨0, _⟩ => show win0_1.index t (0 : Fin 2) * 4000 + 1 * p.val = 4000 * t.val + p.val; rw [(idx1 t).1]; omega
  | ⟨1, _⟩ => show win0_1.index t (1 : Fin 2) * 128 + 1 * q.val = q.val; rw [(idx1 t).2]; omega

theorem blk2 (c : Dev nD) (t : Fin cfg0.N) (p : Fin 4000) (q : Fin 128) :
    (iblk m c 2 t : Vec Ideal S4000x128 .f32) (ix2 p q) = (V m c main_arg2 : S800000x128.Idx → EReal) (ix2 (rowOf t p) q) := by
  unfold iblk
  rw [View.read_apply]
  show V m c main_arg2 _ = V m c main_arg2 _
  congr 1
  funext a
  apply Fin.ext
  match a with
  | ⟨0, _⟩ => show win0_2.index t (0 : Fin 2) * 4000 + 1 * p.val = 4000 * t.val + p.val; rw [(idx2 t).1]; omega
  | ⟨1, _⟩ => show win0_2.index t (1 : Fin 2) * 128 + 1 * q.val = q.val; rw [(idx2 t).2]; omega

theorem blk3 (c : Dev nD) (t : Fin cfg0.N) (p : Fin 8) (q : Fin 128) :
    (iblk m c 3 t : Vec Ideal S8x128 .f32) (ix2 p q) = (V m c main_v5 : S8x128.Idx → EReal) (ix2 p q) := by
  unfold iblk
  rw [View.read_apply]
  show V m c main_v5 _ = V m c main_v5 _
  congr 1
  funext a
  apply Fin.ext
  match a with
  | ⟨0, _⟩ => show win0_3.index t (0 : Fin 2) * 8 + 1 * p.val = p.val; rw [(idx3 t).1]; omega
  | ⟨1, _⟩ => show win0_3.index t (1 : Fin 2) * 128 + 1 * q.val = q.val; rw [(idx3 t).2]; omega

theorem blk4 (c : Dev nD) (t : Fin cfg0.N) (p : Fin 128) (q : Fin 128) :
    (iblk m c 4 t : Vec Ideal S128x128 .f32) (ix2 p q) = (V m c main_v6 : S128x128.Idx → EReal) (ix2 p q) := by
  unfold iblk
  rw [View.read_apply]
  show V m c main_v6 _ = V m c main_v6 _
  congr 1
  funext a
  apply Fin.ext
  match a with
  | ⟨0, _⟩ => show win0_4.index t (0 : Fin 2) * 128 + 1 * p.val = p.val; rw [(idx4 t).1]; omega
  | ⟨1, _⟩ => show win0_4.index t (1 : Fin 2) * 128 + 1 * q.val = q.val; rw [(idx4 t).2]; omega

theorem blk5 (c : Dev nD) (t : Fin cfg0.N) (p : Fin 128) (q : Fin 128) :
    (iblk m c 5 t : Vec Ideal S128x128 .f32) (ix2 p q) = (V m c main_v7 : S128x128.Idx → EReal) (ix2 p q) := by
  unfold iblk
  rw [View.read_apply]
  show V m c main_v7 _ = V m c main_v7 _
  congr 1
  funext a
  apply Fin.ext
  match a with
  | ⟨0, _⟩ => show win0_5.index t (0 : Fin 2) * 128 + 1 * p.val = p.val; rw [(idx5 t).1]; omega
  | ⟨1, _⟩ => show win0_5.index t (1 : Fin 2) * 128 + 1 * q.val = q.val; rw [(idx5 t).2]; omega

theorem blk6 (c : Dev nD) (t : Fin cfg0.N) (p : Fin 1) (q : Fin 128) :
    (iblk m c 6 t : Vec Ideal S1x128 .f32) (ix2 p q) = (V m c main_v11 : S1x128.Idx → EReal) (ix2 p q) := by
  unfold iblk
  rw [View.read_apply]
  show V m c main_v11 _ = V m c main_v11 _
  congr 1
  funext a
  apply Fin.ext
  match a with
  | ⟨0, _⟩ => show win0_6.index t (0 : Fin 2) * 1 + 1 * p.val = p.val; rw [(idx6 t).1]; omega
  | ⟨1, _⟩ => show win0_6.index t (1 : Fin 2) * 128 + 1 * q.val = q.val; rw [(idx6 t).2]; omega

theorem blk7 (c : Dev nD) (t : Fin cfg0.N) (p : Fin 128) (q : Fin 64) :
    (iblk m c 7 t : Vec Ideal S128x64 .f32) (ix2 p q) = (V m c main_arg9 : S128x64.Idx → EReal) (ix2 p q) := by
  unfold iblk
  rw [View.read_apply]
  show V m c main_arg9 _ = V m c main_arg9 _
  congr 1
  funext a
  apply Fin.ext
  match a with
  | ⟨0, _⟩ => show win0_7.index t (0 : Fin 2) * 128 + 1 * p.val = p.val; rw [(idx7 t).1]; omega
  | ⟨1, _⟩ => show win0_7.index t (1 : Fin 2) * 64 + 1 * q.val = q.val; rw [(idx7 t).2]; omega

theorem blk8 (c : Dev nD) (t : Fin cfg0.N) (p : Fin 1) (q : Fin 64) :
    (iblk m c 8 t : Vec Ideal S1x64 .f32) (ix2 p q) = (V m c main_v12 : S1x64.Idx → EReal) (ix2 p q) := by
  unfold iblk
  rw [View.read_apply]
  show V m c main_v12 _ = V m c main_v12 _
  congr 1
  funext a
  apply Fin.ext
  match a with
  | ⟨0, _⟩ => show win0_8.index t (0 : Fin 2) * 1 + 1 * p.val = p.val; rw [(idx8 t).1]; omega
  | ⟨1, _⟩ => show win0_8.index t (1 : Fin 2) * 64 + 1 * q.val = q.val; rw [(idx8 t).2]; omega

theorem blk9 (c : Dev nD) (t : Fin cfg0.N) (p : Fin 64) (q : Fin 2) :
    (iblk m c 9 t : Vec Ideal S64x2 .f32) (ix2 p q) = (V m c main_v8 : S64x2.Idx → EReal) (ix2 p q) := by
  unfold iblk
  rw [View.read_apply]
  show V m c main_v8 _ = V m c main_v8 _
  congr 1
  funext a
  apply Fin.ext
  match a with
  | ⟨0, _⟩ => show win0_9.index t (0 : Fin 2) * 64 + 1 * p.val = p.val; rw [(idx9 t).1]; omega
  | ⟨1, _⟩ => show win0_9.index t (1 : Fin 2) * 2 + 1 * q.val = q.val; rw [(idx9 t).2]; omega

theorem blk10 (c : Dev nD) (t : Fin cfg0.N) (p : Fin 1) (q : Fin 2) :
    (iblk m c 10 t : Vec Ideal S1x2 .f32) (ix2 p q) = (V m c main_v10 : S1x2.Idx → EReal) (ix2 p q) := by
  unfold iblk
  rw [View.read_apply]
  show V m c main_v10 _ = V m c main_v10 _
  congr 1
  funext a
  apply Fin.ext
  match a with
  | ⟨0, _⟩ => show win0_10.index t (0 : Fin 2) * 1 + 1 * p.val = p.val; rw [(idx10 t).1]; omega
  | ⟨1, _⟩ => show win0_10.index t (1 : Fin 2) * 2 + 1 * q.val = q.val; rw [(idx10 t).2]; omega

/-! ## The packed operands of a block read as the arguments do -/

theorem reads1 (c : Dev nD) (t : Fin cfg0.N) (p : Fin 4000) :
    Reads1 (iblk m c 0 t : Vec Ideal S4000x8 .f32) (iblk m c 1 t : Vec Ideal S4000x128 .f32) (iblk m c 2 t : Vec Ideal S4000x128 .f32)
      (iblk m c 3 t : Vec Ideal S8x128 .f32) (iblk m c 4 t : Vec Ideal S128x128 .f32) (iblk m c 5 t : Vec Ideal S128x128 .f32)
      (iblk m c 6 t : Vec Ideal S1x128 .f32)
      ((m ((c : Thread nD τ).loc main_arg0)) : S800000x1.Idx → EReal) ((m ((c : Thread nD τ).loc main_arg1)) : S800000x128.Idx → EReal) ((m ((c : Thread nD τ).loc main_arg2)) : S800000x128.Idx → EReal) ((m ((c : Thread nD τ).loc main_arg3)) : S800000x1.Idx → EReal) ((m ((c : Thread nD τ).loc main_arg4)) : S800000x1.Idx → EReal) ((m ((c : Thread nD τ).loc main_arg5)) : S800000x1.Idx → EReal) ((m ((c : Thread nD τ).loc main_arg6)) : S800000x1.Idx → EReal) ((m ((c : Thread nD τ).loc main_arg7)) : S261x128.Idx → EReal) ((m ((c : Thread nD τ).loc main_arg8)) : S128.Idx → EReal) p (rowOf t p) where
  hA a := by rw [blk1, V_main_arg1]
  hB a := by rw [blk2, V_main_arg2]
  s0 := by rw [blk0, scal_c0]
  s1 := by rw [blk0, scal_c1]
  s2 := by rw [blk0, scal_c2]
  s3 := by rw [blk0, scal_c3]
  s4 := by rw [blk0, scal_c4]
  s5 := by rw [blk0, scal_c5]
  s6 := by rw [blk0, scal_c6]
  s7 := by rw [blk0, scal_c7]
  w0 l := by rw [blk3, w1s_r0]
  w1 l := by rw [blk3, w1s_r1]
  w2 l := by rw [blk3, w1s_r2]
  w3 l := by rw [blk3, w1s_r3]
  w4 l := by rw [blk3, w1s_r4]
  w5 l := by rw [blk3, w1s_r5]
  w6 l := by rw [blk3, w1s_r6]
  w7 l := by rw [blk3, w1s_r7]
  wa a l := by rw [blk4, w1a_apply]
  wb a l := by rw [blk5, w1b_apply]
  b l := by rw [blk6, b1_apply]

/-! ## The whole result array -/

/-- Column 0 is the head with (Ww, bw), column 1 the head with (Wm, bm), of the arguments as launched. -/
def G (c : Dev nD) : S800000x2.Idx → EReal := fun i =>
  if (i 1).val = 0 then head ((m ((c : Thread nD τ).loc main_arg0)) : S800000x1.Idx → EReal) ((m ((c : Thread nD τ).loc main_arg1)) : S800000x128.Idx → EReal) ((m ((c : Thread nD τ).loc main_arg2)) : S800000x128.Idx → EReal) ((m ((c : Thread nD τ).loc main_arg3)) : S800000x1.Idx → EReal) ((m ((c : Thread nD τ).loc main_arg4)) : S800000x1.Idx → EReal) ((m ((c : Thread nD τ).loc main_arg5)) : S800000x1.Idx → EReal) ((m ((c : Thread nD τ).loc main_arg6)) : S800000x1.Idx → EReal) ((m ((c : Thread nD τ).loc main_arg7)) : S261x128.Idx → EReal) ((m ((c : Thread nD τ).loc main_arg8)) : S128.Idx → EReal) ((m ((c : Thread nD τ).loc main_arg9)) : S128x64.Idx → EReal) ((m ((c : Thread nD τ).loc main_arg10)) : S64.Idx → EReal) ((m ((c : Thread nD τ).loc main_arg11)) : S64x1.Idx → EReal) ((m ((c : Thread nD τ).loc main_arg12)) : S1.Idx → EReal) (i 0)
  else head ((m ((c : Thread nD τ).loc main_arg0)) : S800000x1.Idx → EReal) ((m ((c : Thread nD τ).loc main_arg1)) : S800000x128.Idx → EReal) ((m ((c : Thread nD τ).loc main_arg2)) : S800000x128.Idx → EReal) ((m ((c : Thread nD τ).loc main_arg3)) : S800000x1.Idx → EReal) ((m ((c : Thread nD τ).loc main_arg4)) : S800000x1.Idx → EReal) ((m ((c : Thread nD τ).loc main_arg5)) : S800000x1.Idx → EReal) ((m ((c : Thread nD τ).loc main_arg6)) : S800000x1.Idx → EReal) ((m ((c : Thread nD τ).loc main_arg7)) : S261x128.Idx → EReal) ((m ((c : Thread nD τ).loc main_arg8)) : S128.Idx → EReal) ((m ((c : Thread nD τ).loc main_arg9)) : S128x64.Idx → EReal) ((m ((c : Thread nD τ).loc main_arg10)) : S64.Idx → EReal) ((m ((c : Thread nD τ).loc main_arg13)) : S64x1.Idx → EReal) ((m ((c : Thread nD τ).loc main_arg14)) : S1.Idx → EReal) (i 0)

/-- The block stored at point t, at (p, j), is `G` at row 4000 t + p, column j. -/
theorem stored_apply (c : Dev nD) (t : Fin cfg0.N) (p : Fin 4000) (j : Fin 2) :
    blockOut (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 p j) = G m c (ix2 (rowOf t p) j) := by
  rw [blockOut_apply]
  have hW2 : (iblk m c 7 t : Vec Ideal S128x64 .f32) = ((m ((c : Thread nD τ).loc main_arg9)) : S128x64.Idx → EReal) := by
    funext y
    obtain ⟨a, b, rfl⟩ : ∃ (a : Fin 128) (b : Fin 64), y = ix2 a b := ⟨y 0, y 1, eq_ix2 y⟩
    rw [blk7, V_main_arg9]
  have hb2 : ∀ k, (iblk m c 8 t : Vec Ideal S1x64 .f32) (ix2 (0 : Fin 1) k) = ((m ((c : Thread nD τ).loc main_arg10)) : S64.Idx → EReal) (ix1 k) := fun k => by rw [blk8, b2_apply]
  match j with
  | ⟨0, _⟩ =>
    refine (outK_eq (reads1 m c t p) hb2 (0 : Fin 2) ((m ((c : Thread nD τ).loc main_arg11)) : S64x1.Idx → EReal) ((m ((c : Thread nD τ).loc main_arg12)) : S1.Idx → EReal) (fun k => by rw [blk9, heads_c0]) (by rw [blk10, bh_c0])).trans ?_
    rw [hW2]
    exact (if_pos rfl).symm
  | ⟨1, _⟩ =>
    refine (outK_eq (reads1 m c t p) hb2 (1 : Fin 2) ((m ((c : Thread nD τ).loc main_arg13)) : S64x1.Idx → EReal) ((m ((c : Thread nD τ).loc main_arg14)) : S1.Idx → EReal) (fun k => by rw [blk9, heads_c1]) (by rw [blk10, bh_c1])).trans ?_
    rw [hW2]
    exact (if_neg (show ¬ ((1 : ℕ) = 0) from Nat.one_ne_zero)).symm

/-- What point t writes back is its block of `G`. -/
theorem flushed_eq (c : Dev nD) (t : Fin cfg0.N) :
    (dats m 0 c).flushed 11 t = ((cfg0.win 11).blk t).view.read (Elt Ideal) (G m c) := by
  show (cfg0.win 11).cut (grid0.coords t) ((dats m 0 c).after 11 t) = _
  rw [after11]
  funext y
  obtain ⟨p, j, rfl⟩ : ∃ (p : Fin 4000) (j : Fin 2), y = ix2 p j := ⟨y 0, y 1, eq_ix2 y⟩
  rw [View.read_apply]
  have e : ((cfg0.win 11).blk t).view.emb (ix2 p j) = (ix2 (rowOf t p) j : S800000x2.Idx) := by
    funext a
    apply Fin.ext
    match a with
    | ⟨0, _⟩ => show win0_11.index t (0 : Fin 2) * 4000 + 1 * p.val = 4000 * t.val + p.val; rw [(idx11 t).1]; omega
    | ⟨1, _⟩ => show win0_11.index t (1 : Fin 2) * 2 + 1 * j.val = j.val; rw [(idx11 t).2]; omega
  rw [e]
  exact stored_apply m c t p j

/-- An index of the result is in point t's block iff each coordinate is in the block's range. -/
theorem mem_blk (t : Fin cfg0.N) (i : S800000x2.Idx) :
    i ∈ ((cfg0.win 11).blk t).view.set ↔ ∀ a : Fin 2, win0_11.index t a * S4000x2.size a ≤ (i a).val ∧ (i a).val < win0_11.index t a * S4000x2.size a + S4000x2.size a := by
  show i ∈ ((View.whole main_v13).slice (win0_11.rect t)).set ↔ _
  rw [View.set_slice_whole, Rect.mem_set_unit]
  exact Iff.rfl

/-- Row r is in the block of point r / 4000. -/
theorem cover (i : S800000x2.Idx) : ∃ t : Fin cfg0.N, (cfg0.win 11).flush t = true ∧ i ∈ ((cfg0.win 11).blk t).view.set := by
  have hi0 : (i 0).val < 800000 := (i 0).isLt
  have hi1 : (i 1).val < 2 := (i 1).isLt
  have hN : cfg0.N = 200 := N_0
  refine ⟨⟨(i 0).val / 4000, by omega⟩, flush0_11 _, ?_⟩
  rw [mem_blk]
  intro a
  match a with
  | ⟨0, _⟩ =>
    show win0_11.index _ (0 : Fin 2) * 4000 ≤ (i 0).val ∧ (i 0).val < win0_11.index _ (0 : Fin 2) * 4000 + 4000
    rw [(idx11 _).1]
    show (i 0).val / 4000 * 4000 ≤ (i 0).val ∧ (i 0).val < (i 0).val / 4000 * 4000 + 4000
    omega
  | ⟨1, _⟩ =>
    show win0_11.index _ (1 : Fin 2) * 2 ≤ (i 1).val ∧ (i 1).val < win0_11.index _ (1 : Fin 2) * 2 + 2
    rw [(idx11 _).2]
    omega

/-- The result array after the region. -/
theorem final (c : Dev nD) : (dats m 0 c).arrAt 11 cfg0.N = G m c :=
  (dats m 0 c).arrAt_eq_of_cover 11 (G m c) (fun t _ => flushed_eq m c t) cover

/-! ## The two results -/

theorem result_w (c : Dev nD) :
    Pipeline.afterTail₀ cfgs (dats m) 0 (V0 m) [hostOps1] c main_v14 = fun i => head ((m ((c : Thread nD τ).loc main_arg0)) : S800000x1.Idx → EReal) ((m ((c : Thread nD τ).loc main_arg1)) : S800000x128.Idx → EReal) ((m ((c : Thread nD τ).loc main_arg2)) : S800000x128.Idx → EReal) ((m ((c : Thread nD τ).loc main_arg3)) : S800000x1.Idx → EReal) ((m ((c : Thread nD τ).loc main_arg4)) : S800000x1.Idx → EReal) ((m ((c : Thread nD τ).loc main_arg5)) : S800000x1.Idx → EReal) ((m ((c : Thread nD τ).loc main_arg6)) : S800000x1.Idx → EReal) ((m ((c : Thread nD τ).loc main_arg7)) : S261x128.Idx → EReal) ((m ((c : Thread nD τ).loc main_arg8)) : S128.Idx → EReal) ((m ((c : Thread nD τ).loc main_arg9)) : S128x64.Idx → EReal) ((m ((c : Thread nD τ).loc main_arg10)) : S64.Idx → EReal) ((m ((c : Thread nD τ).loc main_arg11)) : S64x1.Idx → EReal) ((m ((c : Thread nD τ).loc main_arg12)) : S1.Idx → EReal) (i 0) := by
  unfold Pipeline.afterTail₀
  show StableHlo.after hostOps1 _ (Proc.devRef .tc main_v14) = _
  after_results
  rw [(Pipeline.withArrays_arr spec0 launch0.win.arr_inj c _ _ 11).trans (final m c)]
  funext i
  obtain ⟨r, u, rfl⟩ : ∃ (r : Fin 800000) (u : Fin 1), i = ix2 r u := ⟨i 0, i 1, eq_ix2 i⟩
  rw [slice2_axis1_apply 0 (G m c) _ r u (0 : Fin 2) (by have := u.isLt; omega)]
  exact if_pos rfl

theorem result_M (c : Dev nD) :
    Pipeline.afterTail₀ cfgs (dats m) 0 (V0 m) [hostOps1] c main_v15 = fun i => head ((m ((c : Thread nD τ).loc main_arg0)) : S800000x1.Idx → EReal) ((m ((c : Thread nD τ).loc main_arg1)) : S800000x128.Idx → EReal) ((m ((c : Thread nD τ).loc main_arg2)) : S800000x128.Idx → EReal) ((m ((c : Thread nD τ).loc main_arg3)) : S800000x1.Idx → EReal) ((m ((c : Thread nD τ).loc main_arg4)) : S800000x1.Idx → EReal) ((m ((c : Thread nD τ).loc main_arg5)) : S800000x1.Idx → EReal) ((m ((c : Thread nD τ).loc main_arg6)) : S800000x1.Idx → EReal) ((m ((c : Thread nD τ).loc main_arg7)) : S261x128.Idx → EReal) ((m ((c : Thread nD τ).loc main_arg8)) : S128.Idx → EReal) ((m ((c : Thread nD τ).loc main_arg9)) : S128x64.Idx → EReal) ((m ((c : Thread nD τ).loc main_arg10)) : S64.Idx → EReal) ((m ((c : Thread nD τ).loc main_arg13)) : S64x1.Idx → EReal) ((m ((c : Thread nD τ).loc main_arg14)) : S1.Idx → EReal) (i 0) := by
  unfold Pipeline.afterTail₀
  show StableHlo.after hostOps1 _ (Proc.devRef .tc main_v15) = _
  after_results
  rw [(Pipeline.withArrays_arr spec0 launch0.win.arr_inj c _ _ 11).trans (final m c)]
  funext i
  obtain ⟨r, u, rfl⟩ : ∃ (r : Fin 800000) (u : Fin 1), i = ix2 r u := ⟨i 0, i 1, eq_ix2 i⟩
  rw [slice2_axis1_apply 1 (G m c) _ r u (1 : Fin 2) (by have := u.isLt; omega)]
  exact if_neg (show ¬ ((1 : ℕ) = 0) from Nat.one_ne_zero)

end Cert.KernelIdeal.Arrays

end
-- ==== Proof.KernelRun.lean ====
/-
  The idealized kernel's run with its two results named: every weakly fair execution terminates without a fault, the
  first result holds the head with (Ww, bw) of every row and the second the head with (Wm, bm), and the arguments end
  as launched.
-/
import proofs.«138492_g85555748537205_cont_sun_m_819_2_alg».proof.Proof.KernelArrays

set_option maxRecDepth 16384

noncomputable section

namespace Cert.KernelIdeal.Arrays

open Cert.KernelIdeal Cert.KernelIdeal.Gen Cert.KernelIdeal.Around Cert.Mlp
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v14) = (fun i => head ((m ((c.tc : Thread nD τ).loc main_arg0)) : S800000x1.Idx → EReal) ((m ((c.tc : Thread nD τ).loc main_arg1)) : S800000x128.Idx → EReal) ((m ((c.tc : Thread nD τ).loc main_arg2)) : S800000x128.Idx → EReal) ((m ((c.tc : Thread nD τ).loc main_arg3)) : S800000x1.Idx → EReal) ((m ((c.tc : Thread nD τ).loc main_arg4)) : S800000x1.Idx → EReal) ((m ((c.tc : Thread nD τ).loc main_arg5)) : S800000x1.Idx → EReal) ((m ((c.tc : Thread nD τ).loc main_arg6)) : S800000x1.Idx → EReal) ((m ((c.tc : Thread nD τ).loc main_arg7)) : S261x128.Idx → EReal) ((m ((c.tc : Thread nD τ).loc main_arg8)) : S128.Idx → EReal) ((m ((c.tc : Thread nD τ).loc main_arg9)) : S128x64.Idx → EReal) ((m ((c.tc : Thread nD τ).loc main_arg10)) : S64.Idx → EReal) ((m ((c.tc : Thread nD τ).loc main_arg11)) : S64x1.Idx → EReal) ((m ((c.tc : Thread nD τ).loc main_arg12)) : S1.Idx → EReal) (i 0))
      ∧ r.2.mem ((c.tc : Thread nD τ).loc main_v15) = (fun i => head ((m ((c.tc : Thread nD τ).loc main_arg0)) : S800000x1.Idx → EReal) ((m ((c.tc : Thread nD τ).loc main_arg1)) : S800000x128.Idx → EReal) ((m ((c.tc : Thread nD τ).loc main_arg2)) : S800000x128.Idx → EReal) ((m ((c.tc : Thread nD τ).loc main_arg3)) : S800000x1.Idx → EReal) ((m ((c.tc : Thread nD τ).loc main_arg4)) : S800000x1.Idx → EReal) ((m ((c.tc : Thread nD τ).loc main_arg5)) : S800000x1.Idx → EReal) ((m ((c.tc : Thread nD τ).loc main_arg6)) : S800000x1.Idx → EReal) ((m ((c.tc : Thread nD τ).loc main_arg7)) : S261x128.Idx → EReal) ((m ((c.tc : Thread nD τ).loc main_arg8)) : S128.Idx → EReal) ((m ((c.tc : Thread nD τ).loc main_arg9)) : S128x64.Idx → EReal) ((m ((c.tc : Thread nD τ).loc main_arg10)) : S64.Idx → EReal) ((m ((c.tc : Thread nD τ).loc main_arg13)) : S64x1.Idx → EReal) ((m ((c.tc : Thread nD τ).loc main_arg14)) : S1.Idx → EReal) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨
      ((h c).2 main_v14 (Pipeline.mem_restRefs_of main_v14 (by decide) (by decide))).trans (result_w m c),
      ((h c).2 main_v15 (Pipeline.mem_restRefs_of main_v15 (by decide) (by decide))).trans (result_M m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).1 7).trans (((dats m 0 c).arrAt_in 7 rfl _).trans ((A_eq m c 7).trans (V_main_arg9 m c))),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c)⟩) (run_main m ρ)

end Cert.KernelIdeal.Arrays

end
-- ==== Proof.SumBands.lean ====
/-
  A sum over the 261 columns of the concatenated input row, read band by band: column 0 (xi), the two bands of 128
  columns (h_A, h_B) and the last four columns (E, I, L, q). Only commutativity and associativity of the sum are used,
  so it holds in any commutative additive monoid, the extended reals among them.
-/
import Mathlib.Algebra.BigOperators.Fin
import Mathlib.Tactic.Abel

namespace Cert.Mlp

theorem sum_bands {M : Type} [AddCommMonoid M] (g : Fin 261 → M) :
    ∑ k, g k = ((∑ a : Fin 128, g ⟨1 + a.val, by have := a.isLt; omega⟩) + ∑ a : Fin 128, g ⟨129 + a.val, by have := a.isLt; omega⟩)
      + (g ⟨0, by omega⟩ + g ⟨257, by omega⟩ + g ⟨258, by omega⟩ + g ⟨259, by omega⟩ + g ⟨260, by omega⟩) := by
  have h1 : ∑ k : Fin 261, g k
      = ∑ k : Fin 257, g ⟨k.val, by have := k.isLt; omega⟩ + ∑ k : Fin 4, g ⟨257 + k.val, by have := k.isLt; omega⟩ :=
    Fin.sum_univ_add (a := 257) (b := 4) g
  have h2 : ∑ k : Fin 257, g ⟨k.val, by have := k.isLt; omega⟩
      = ∑ k : Fin 129, g ⟨k.val, by have := k.isLt; omega⟩ + ∑ a : Fin 128, g ⟨129 + a.val, by have := a.isLt; omega⟩ :=
    Fin.sum_univ_add (a := 129) (b := 128) (fun k : Fin 257 => g ⟨k.val, by have := k.isLt; omega⟩)
  have h3 : ∑ k : Fin 129, g ⟨k.val, by have := k.isLt; omega⟩
      = ∑ k : Fin 1, g ⟨k.val, by have := k.isLt; omega⟩ + ∑ a : Fin 128, g ⟨1 + a.val, by have := a.isLt; omega⟩ :=
    Fin.sum_univ_add (a := 1) (b := 128) (fun k : Fin 129 => g ⟨k.val, by have := k.isLt; omega⟩)
  rw [h1, h2, h3, Fin.sum_univ_one, Fin.sum_univ_four]
  show ((g ⟨0, by omega⟩ + ∑ a : Fin 128, g ⟨1 + a.val, by have := a.isLt; omega⟩) + ∑ a : Fin 128, g ⟨129 + a.val, by have := a.isLt; omega⟩)
      + (g ⟨257, by omega⟩ + g ⟨258, by omega⟩ + g ⟨259, by omega⟩ + g ⟨260, by omega⟩) = _
  abel

end Cert.Mlp
-- ==== Proof.RefSpec.lean ====
/-
  The reference's run, stage by stage, is the specification's whole form. Its first product contracts over the 261
  concatenated columns; read band by band (`sum_bands`) a column of the concatenation is a column of the operand whose
  span holds it — column 0 is xi, columns 1 … 128 are h_A, 129 … 256 are h_B, 257 … 260 are E, I, L, q. The host's tanh
  is the same function of an extended real as the kernel's, and a bias broadcast over the rows reads the bias.
-/
import proofs.«138492_g85555748537205_cont_sun_m_819_2_alg».proof.Proof.Gen.ReferenceIdeal.Read
import proofs.«138492_g85555748537205_cont_sun_m_819_2_alg».proof.Proof.MlpSpec
import proofs.«138492_g85555748537205_cont_sun_m_819_2_alg».proof.Proof.SumBands
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen Cert.ReferenceIdeal.Read Cert.Mlp
open Idealize.ShloMosaic Idealize.ShloMosaic.ValueIdx

/-! ## The index maps of the three products and of the bias broadcasts, at an index given by coordinates -/

theorem ridx1 (r : Fin 800000) (l : Fin 128) (k : Fin 261) : ridx_main_v1 (ix2 r l) k = ix2 k l :=
  funext fun a => Fin.ext (by match a with | ⟨0, _⟩ => rfl | ⟨1, _⟩ => rfl)
theorem lidx6 (r : Fin 800000) (k : Fin 64) (l : Fin 128) : lidx_main_v6 (ix2 r k) l = ix2 r l :=
  funext fun a => Fin.ext (by match a with | ⟨0, _⟩ => rfl | ⟨1, _⟩ => rfl)
theorem ridx6 (r : Fin 800000) (k : Fin 64) (l : Fin 128) : ridx_main_v6 (ix2 r k) l = ix2 l k :=
  funext fun a => Fin.ext (by match a with | ⟨0, _⟩ => rfl | ⟨1, _⟩ => rfl)
theorem lidx11 (r : Fin 800000) (u : Fin 1) (k : Fin 64) : lidx_main_v11 (ix2 r u) k = ix2 r k :=
  funext fun a => Fin.ext (by match a with | ⟨0, _⟩ => rfl | ⟨1, _⟩ => rfl)
theorem ridx11 (r : Fin 800000) (u : Fin 1) (k : Fin 64) : ridx_main_v11 (ix2 r u) k = ix2 k u :=
  funext fun a => Fin.ext (by match a with | ⟨0, _⟩ => rfl | ⟨1, _⟩ => rfl)
theorem lidx15 (r : Fin 800000) (u : Fin 1) (k : Fin 64) : lidx_main_v15 (ix2 r u) k = ix2 r k :=
  funext fun a => Fin.ext (by match a with | ⟨0, _⟩ => rfl | ⟨1, _⟩ => rfl)
theorem ridx15 (r : Fin 800000) (u : Fin 1) (k : Fin 64) : ridx_main_v15 (ix2 r u) k = ix2 k u :=
  funext fun a => Fin.ext (by match a with | ⟨0, _⟩ => rfl | ⟨1, _⟩ => rfl)
theorem idx_b1 (r : Fin 800000) (l : Fin 128) : idx_main_v2 (idx_main_v3 (ix2 r l)) = ix1 l :=
  funext fun a => Fin.ext (by match a with | ⟨0, _⟩ => rfl)
theorem idx_b2 (r : Fin 800000) (k : Fin 64) : idx_main_v7 (idx_main_v8 (ix2 r k)) = ix1 k :=
  funext fun a => Fin.ext (by match a with | ⟨0, _⟩ => rfl)
theorem idx_bw (r : Fin 800000) (u : Fin 1) : idx_main_v12 (idx_main_v13 (ix2 r u)) = ix1 (0 : Fin 1) :=
  funext fun a => Fin.ext (by match a with | ⟨0, _⟩ => rfl)
theorem idx_bm (r : Fin 800000) (u : Fin 1) : idx_main_v16 (idx_main_v17 (ix2 r u)) = ix1 (0 : Fin 1) :=
  funext fun a => Fin.ext (by match a with | ⟨0, _⟩ => rfl)

/-! ## A column of the concatenated input is a column of the operand whose span holds it -/

/-- Column 0 is xi. -/
theorem inp_xi (x0 : Mat 800000 1) (x1 x2 : Mat 800000 128) (x3 x4 x5 x6 : Mat 800000 1) (r : Fin 800000) (l : Fin 128) :
    val_main_v0 (F := Ideal) x0 x1 x2 x3 x4 x5 x6 (lidx_main_v1 (ix2 r l) (⟨0, by omega⟩ : Fin 261)) = x0 (ix2 r (0 : Fin 1)) := by
  unfold val_main_v0
  refine concatenate_apply_piece (t := S800000x261) (1 : Fin 2) _ _ _ 0 ?_ S800000x1 x0 ?_ ?_ 0 ?_ (ix2 r (0 : Fin 1)) ?_ ?_
  · simp
  · rfl
  · rfl
  · rfl
  · intro b hb
    match b with
    | ⟨0, _⟩ => rfl
    | ⟨1, _⟩ => exact absurd rfl hb
  · rfl

/-- Column 1 + a is column a of h_A. -/
theorem inp_hA (x0 : Mat 800000 1) (x1 x2 : Mat 800000 128) (x3 x4 x5 x6 : Mat 800000 1) (r : Fin 800000) (l : Fin 128) (a : Fin 128) :
    val_main_v0 (F := Ideal) x0 x1 x2 x3 x4 x5 x6 (lidx_main_v1 (ix2 r l) (⟨1 + a.val, by have := a.isLt; omega⟩ : Fin 261)) = x1 (ix2 r a) := by
  unfold val_main_v0
  refine concatenate_apply_piece (t := S800000x261) (1 : Fin 2) _ _ _ 1 ?_ S800000x128 x1 ?_ ?_ 1 ?_ (ix2 r a) ?_ ?_
  · simp
  · rfl
  · rfl
  · rfl
  · intro b hb
    match b with
    | ⟨0, _⟩ => rfl
    | ⟨1, _⟩ => exact absurd rfl hb
  · rfl

/-- Column 129 + a is column a of h_B. -/
theorem inp_hB (x0 : Mat 800000 1) (x1 x2 : Mat 800000 128) (x3 x4 x5 x6 : Mat 800000 1) (r : Fin 800000) (l : Fin 128) (a : Fin 128) :
    val_main_v0 (F := Ideal) x0 x1 x2 x3 x4 x5 x6 (lidx_main_v1 (ix2 r l) (⟨129 + a.val, by have := a.isLt; omega⟩ : Fin 261)) = x2 (ix2 r a) := by
  unfold val_main_v0
  refine concatenate_apply_piece (t := S800000x261) (1 : Fin 2) _ _ _ 2 ?_ S800000x128 x2 ?_ ?_ 129 ?_ (ix2 r a) ?_ ?_
  · simp
  · rfl
  · rfl
  · rfl
  · intro b hb
    match b with
    | ⟨0, _⟩ => rfl
    | ⟨1, _⟩ => exact absurd rfl hb
  · rfl

/-- Column 257 is E. -/
theorem inp_E (x0 : Mat 800000 1) (x1 x2 : Mat 800000 128) (x3 x4 x5 x6 : Mat 800000 1) (r : Fin 800000) (l : Fin 128) :
    val_main_v0 (F := Ideal) x0 x1 x2 x3 x4 x5 x6 (lidx_main_v1 (ix2 r l) (⟨257, by omega⟩ : Fin 261)) = x3 (ix2 r (0 : Fin 1)) := by
  unfold val_main_v0
  refine concatenate_apply_piece (t := S800000x261) (1 : Fin 2) _ _ _ 3 ?_ S800000x1 x3 ?_ ?_ 257 ?_ (ix2 r (0 : Fin 1)) ?_ ?_
  · simp
  · rfl
  · rfl
  · rfl
  · intro b hb
    match b with
    | ⟨0, _⟩ => rfl
    | ⟨1, _⟩ => exact absurd rfl hb
  · rfl

/-- Column 258 is I. -/
theorem inp_I (x0 : Mat 800000 1) (x1 x2 : Mat 800000 128) (x3 x4 x5 x6 : Mat 800000 1) (r : Fin 800000) (l : Fin 128) :
    val_main_v0 (F := Ideal) x0 x1 x2 x3 x4 x5 x6 (lidx_main_v1 (ix2 r l) (⟨258, by omega⟩ : Fin 261)) = x4 (ix2 r (0 : Fin 1)) := by
  unfold val_main_v0
  refine concatenate_apply_piece (t := S800000x261) (1 : Fin 2) _ _ _ 4 ?_ S800000x1 x4 ?_ ?_ 258 ?_ (ix2 r (0 : Fin 1)) ?_ ?_
  · simp
  · rfl
  · rfl
  · rfl
  · intro b hb
    match b with
    | ⟨0, _⟩ => rfl
    | ⟨1, _⟩ => exact absurd rfl hb
  · rfl

/-- Column 259 is L. -/
theorem inp_L (x0 : Mat 800000 1) (x1 x2 : Mat 800000 128) (x3 x4 x5 x6 : Mat 800000 1) (r : Fin 800000) (l : Fin 128) :
    val_main_v0 (F := Ideal) x0 x1 x2 x3 x4 x5 x6 (lidx_main_v1 (ix2 r l) (⟨259, by omega⟩ : Fin 261)) = x5 (ix2 r (0 : Fin 1)) := by
  unfold val_main_v0
  refine concatenate_apply_piece (t := S800000x261) (1 : Fin 2) _ _ _ 5 ?_ S800000x1 x5 ?_ ?_ 259 ?_ (ix2 r (0 : Fin 1)) ?_ ?_
  · simp
  · rfl
  · rfl
  · rfl
  · intro b hb
    match b with
    | ⟨0, _⟩ => rfl
    | ⟨1, _⟩ => exact absurd rfl hb
  · rfl

/-- Column 260 is q. -/
theorem inp_q (x0 : Mat 800000 1) (x1 x2 : Mat 800000 128) (x3 x4 x5 x6 : Mat 800000 1) (r : Fin 800000) (l : Fin 128) :
    val_main_v0 (F := Ideal) x0 x1 x2 x3 x4 x5 x6 (lidx_main_v1 (ix2 r l) (⟨260, by omega⟩ : Fin 261)) = x6 (ix2 r (0 : Fin 1)) := by
  unfold val_main_v0
  refine concatenate_apply_piece (t := S800000x261) (1 : Fin 2) _ _ _ 6 ?_ S800000x1 x6 ?_ ?_ 260 ?_ (ix2 r (0 : Fin 1)) ?_ ?_
  · simp
  · rfl
  · rfl
  · rfl
  · intro b hb
    match b with
    | ⟨0, _⟩ => rfl
    | ⟨1, _⟩ => exact absurd rfl hb
  · rfl

/-! ## The stages -/

/-- The first hidden layer. -/
theorem ref_hid1 (x0 : Mat 800000 1) (x1 x2 : Mat 800000 128) (x3 x4 x5 x6 : Mat 800000 1) (x7 : Mat 261 128) (x8 : Row 128) (r : Fin 800000) (l : Fin 128) :
    val_main_v5 (F := Ideal) x0 x1 x2 x3 x4 x5 x6 x7 x8 (ix2 r l) = hid1 x0 x1 x2 x3 x4 x5 x6 x7 x8 r l := by
  rw [val_main_v5_apply, val_main_v4_apply, val_main_v1_apply, val_main_v3_apply, val_main_v2_apply, sum_bands]
  simp only [ridx1, inp_xi, inp_hA, inp_hB, inp_E, inp_I, inp_L, inp_q, idx_b1]
  rfl

/-- The second hidden layer. -/
theorem ref_hid2 (x0 : Mat 800000 1) (x1 x2 : Mat 800000 128) (x3 x4 x5 x6 : Mat 800000 1) (x7 : Mat 261 128) (x8 : Row 128) (x9 : Mat 128 64) (x10 : Row 64) (r : Fin 800000) (k : Fin 64) :
    val_main_v10 (F := Ideal) x0 x1 x2 x3 x4 x5 x6 x7 x8 x9 x10 (ix2 r k) = hid2 x0 x1 x2 x3 x4 x5 x6 x7 x8 x9 x10 r k := by
  rw [val_main_v10_apply, val_main_v9_apply, val_main_v6_apply, val_main_v8_apply, val_main_v7_apply]
  simp only [lidx6, ridx6, ref_hid1, idx_b2]
  rfl

/-- The first result is the head with weights Ww and bias bw. -/
theorem ref_w (x0 : Mat 800000 1) (x1 x2 : Mat 800000 128) (x3 x4 x5 x6 : Mat 800000 1) (x7 : Mat 261 128) (x8 : Row 128) (x9 : Mat 128 64) (x10 : Row 64) (x11 : Mat 64 1) (x12 : Row 1) :
    val_main_v14 (F := Ideal) x0 x1 x2 x3 x4 x5 x6 x7 x8 x9 x10 x11 x12 = fun i => head x0 x1 x2 x3 x4 x5 x6 x7 x8 x9 x10 x11 x12 (i 0) := by
  funext i
  obtain ⟨r, u, rfl⟩ : ∃ (r : Fin 800000) (u : Fin 1), i = ix2 r u := ⟨i 0, i 1, eq_ix2 i⟩
  obtain rfl : u = 0 := Subsingleton.elim _ _
  rw [val_main_v14_apply, val_main_v11_apply, val_main_v13_apply, val_main_v12_apply]
  simp only [lidx11, ridx11, ref_hid2, idx_bw]
  rfl

/-- The second result is the head with weights Wm and bias bm. -/
theorem ref_M (x0 : Mat 800000 1) (x1 x2 : Mat 800000 128) (x3 x4 x5 x6 : Mat 800000 1) (x7 : Mat 261 128) (x8 : Row 128) (x9 : Mat 128 64) (x10 : Row 64) (x13 : Mat 64 1) (x14 : Row 1) :
    val_main_v18 (F := Ideal) x0 x1 x2 x3 x4 x5 x6 x7 x8 x9 x10 x13 x14 = fun i => head x0 x1 x2 x3 x4 x5 x6 x7 x8 x9 x10 x13 x14 (i 0) := by
  funext i
  obtain ⟨r, u, rfl⟩ : ∃ (r : Fin 800000) (u : Fin 1), i = ix2 r u := ⟨i 0, i 1, eq_ix2 i⟩
  obtain rfl : u = 0 := Subsingleton.elim _ _
  rw [val_main_v18_apply, val_main_v15_apply, val_main_v17_apply, val_main_v16_apply]
  simp only [lidx15, ridx15, ref_hid2, idx_bm]
  rfl

end Cert.ReferenceIdeal.RefValue

end
-- ==== Proof.lean ====
/-
  The certificate of the fused decoder kernel against its jnp reference.
  FRAMES. The kernel's @main is fifteen host lines that pack the operands, one region over the 200 row blocks, and
  two host lines that cut the result's two columns apart; its body loads eleven whole blocks and stores one. Both printed
  forms of the kernel run to the end, fault nowhere and leave the fifteen arguments as launched (`KernelAround`,
  `KernelIdealAround`: one text at two float instances). The reference is a straight line of host operations.
  PRESERVES. The idealization rewrote nothing.
  ALGEBRAIC. At the ideal values both programs compute, for every row, tanh (row · W1 + b1), then tanh (· W2 + b2), then
  the two heads. The kernel contracts the 261 input columns as three products — h_A and h_B against W1's two bands of 128
  rows, and the five scalar columns packed with three zero columns against W1's first row, last four rows and three zero
  rows — where the reference contracts the concatenated row once; the two are one sum regrouped, with 0 · 0 = 0 dropped
  (`MlpSpec`, `SumBands`): no finiteness is needed. The kernel's side is `KernelBody` (the stored block), `KernelArrays`
  (the blocks tile the result) and `KernelRun`; the reference's side is `RefSpec` over its generated run.
-/
import proofs.«138492_g85555748537205_cont_sun_m_819_2_alg».proof.Defs
import proofs.«138492_g85555748537205_cont_sun_m_819_2_alg».proof.Proof.Gen.Kernel
import proofs.«138492_g85555748537205_cont_sun_m_819_2_alg».proof.Proof.Gen.KernelIdeal
import proofs.«138492_g85555748537205_cont_sun_m_819_2_alg».proof.Proof.Gen.ReferenceIdeal
import proofs.«138492_g85555748537205_cont_sun_m_819_2_alg».proof.Proof.Gen.ReferenceIdeal.Run
import proofs.«138492_g85555748537205_cont_sun_m_819_2_alg».proof.Proof.Gen.ReferenceIdeal.Read
import proofs.«138492_g85555748537205_cont_sun_m_819_2_alg».proof.Proof.Gen.Pre_finite_inputs
import proofs.«138492_g85555748537205_cont_sun_m_819_2_alg».proof.Proof.KernelAround
import proofs.«138492_g85555748537205_cont_sun_m_819_2_alg».proof.Proof.KernelIdealAround
import proofs.«138492_g85555748537205_cont_sun_m_819_2_alg».proof.Proof.KernelRun
import proofs.«138492_g85555748537205_cont_sun_m_819_2_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.Around.frame m ρ

theorem frame_ki : Cert.frame_KernelIdeal := fun m ρ _ => Cert.KernelIdeal.Around.frame m ρ

/-- The reference's generated run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end with the two heads of every row, of arguments that agree. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14⟩ := hagree c
    rw [Cert.ReferenceIdeal.Read.val_main_v14_eq, Cert.ReferenceIdeal.RefValue.ref_w, h0, h1, h2, h3, h4, h5, h6, h7, h8, h9, h10, h11, h12]
    rfl
  · obtain ⟨h0, h1, h2, h3, h4, h5, h6, h7, h8, h9, h10, h11, h12, h13, h14⟩ := hagree c
    rw [Cert.ReferenceIdeal.Read.val_main_v18_eq, Cert.ReferenceIdeal.RefValue.ref_M, h0, h1, h2, h3, h4, h5, h6, h7, h8, h9, h10, h13, h14]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
